-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1200000x64 : S_.BroadcastsInDim S1200000x64 (![] : Fin 0 → Fin S1200000x64.rank)
  reducesTo_S1200000x64_S_d0_1 : S1200000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x64 .f32) (main_arg1 : FVec F S1200000x64 .f32) (main_arg2 : FVec F S128x128 .f32) (main_arg3 : FVec F S128 .f32) (main_arg4 : FVec F S128 .f32) (main_arg5 : FVec F S128 .f32) (main_arg6 : FVec F S64 .f32) (main_arg7 : FVec F S64 .f32) (main_arg8 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1200000x64 .f32 := Host.absf main_arg1
  let main_cst_0 : FVec F S_ .f32 := constant S_ .f32 0x7F800000#32
  let main_v5 : FVec F S1200000x64 .f32 := broadcastInDim S1200000x64 ![] bcast_S_S1200000x64 main_cst_0
  let main_v6 : IVec S1200000x64 1 := cmpf .olt main_v4 main_v5
  let main_c_1 : IVec S_ 1 := constantI S_ 1 1#1
  let main_v7 : IVec S_ 1 := (fun x v => Host.reduce IntOp.andi x v reducesTo_S1200000x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S64x128 : Shape := ⟨2, ![64, 128]⟩
abbrev S1x128 : Shape := ⟨2, ![1, 128]⟩
abbrev S12000x64 : Shape := ⟨2, ![12000, 64]⟩
abbrev S12000x128 : Shape := ⟨2, ![12000, 128]⟩
abbrev S12000 : Shape := ⟨1, ![12000]⟩
abbrev S12000x1 : Shape := ⟨2, ![12000, 1]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 32
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S128x128, .f32⟩
  | .hbm, ⟨19, _⟩ => ⟨S64x128, .f32⟩
  | .hbm, ⟨20, _⟩ => ⟨S64x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1200000x64, .f32⟩
  | .hbm, ⟨25, _⟩ => ⟨S_, .f32⟩
  | .hbm, ⟨26, _⟩ => ⟨S100000x64, .f32⟩
  | .hbm, ⟨27, _⟩ => ⟨S1200000x1, .i32⟩
  | .hbm, ⟨28, _⟩ => ⟨S100000x64, .f32⟩
  | .hbm, ⟨29, _⟩ => ⟨S1x64, .f32⟩
  | .hbm, ⟨30, _⟩ => ⟨S1x64, .f32⟩
  | .hbm, ⟨31, _⟩ => ⟨S100000x64, .f32⟩
  | .local _ .vmem, ⟨0, _⟩ => ⟨S12000x64, .f32⟩
  | .local _ .vmem, ⟨1, _⟩ => ⟨S12000x64, .f32⟩
  | .local _ .vmem, ⟨2, _⟩ => ⟨S12000x64, .f32⟩
  | .local _ .vmem, ⟨3, _⟩ => ⟨S12000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S12000x64, .f32⟩
  | .local _ .vmem, ⟨10, _⟩ => ⟨S12000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S12000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  transposes_S128x128_S128x128_1_0 : S128x128.Transposes [1, 0] S128x128
  slices_S128x128_S64x128_0_0 : S128x128.Slices ![0, 0] S64x128
  slices_S128x128_S64x128_64_0 : S128x128.Slices ![64, 0] S64x128
  shapeCasts_S128_S1x128 : S128.ShapeCasts S1x128
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S12000x128 : S1x128.Broadcasts S12000x128
  reduces_S12000x128_S12000 : S12000x128.Reduces [1] S12000
  shapeCasts_S12000_S12000x1 : S12000.ShapeCasts S12000x1
  broadcasts_S12000x1_S12000x128 : S12000x1.Broadcasts S12000x128
  slices_S12000x128_o0_0_S12000x64 : S12000x128.Slices ![0, 0] S12000x64
  slices_S12000x128_o0_64_S12000x64 : S12000x128.Slices ![0, 64] S12000x64
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1200000x1_S1200000x64_1_0_n_n_0_1_164_wf : GatherDims.WF S100000x64 S1200000x1 S1200000x64 [1] [0] [] [0] [] 1 ![1, 64]
  dot_S12000x64_S64x128_S12000x128_1_0_0_1_n_n_wf : DotDims.WF S12000x64 S64x128 S12000x128 [1] [0] [0] [1] [] []
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x64.size a ≤ S1200000x64.size a
  hwx0_0 : ∀ i : grid0.Coords, EltTy.bits .f32 = 32 ∨ (Rect.block (s := S1200000x64) S12000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S1200000x64.size a
  hwx0_1 : ∀ i : grid0.Coords, EltTy.bits .f32 = 32 ∨ (Rect.block (s := S1200000x64) S12000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S12000x64.size a ≤ S1200000x64.size a
  hwx0_7 : ∀ i : grid0.Coords, EltTy.bits .f32 = 32 ∨ (Rect.block (s := S1200000x64) S12000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S12000x64_S64x128_S12000x128_1_0_0_1_n_n : DotDims S12000x64 S64x128 S12000x128 where
  lhsContracting := [1]
  rhsContracting := [0]
  lhsNonContracting := [0]
  rhsNonContracting := [1]
  lhsBatch := []
  rhsBatch := []
  wf := dot_S12000x64_S64x128_S12000x128_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_v6) S12000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S12000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000x64 : Shape := ⟨2, ![1200000, 64]⟩
abbrev S128x128 : Shape := ⟨2, ![128, 128]⟩
abbrev S128 : Shape := ⟨1, ![128]⟩
abbrev S64 : Shape := ⟨1, ![64]⟩
abbrev S1200000 : Shape := ⟨1, ![1200000]⟩
abbrev S_ : Shape := ⟨0, ![]⟩
abbrev S1200000x1 : Shape := ⟨2, ![1200000, 1]⟩
abbrev S1200000x128 : Shape := ⟨2, ![1200000, 128]⟩
abbrev S1x128 : Shape := ⟨2, ![1, 128]⟩
abbrev S100000 : Shape := ⟨1, ![100000]⟩
abbrev S100000x1 : Shape := ⟨2, ![100000, 1]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64, .f32⟩
  | .hbm, ⟨7, _⟩ => ⟨S64, .f32⟩
  | .hbm, ⟨8, _⟩ => ⟨S1200000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x64, .f32⟩
  | .hbm, ⟨18, _⟩ => ⟨S1200000x128, .f32⟩
  | .hbm, ⟨19, _⟩ => ⟨S128x128, .f32⟩
  | .hbm, ⟨20, _⟩ => ⟨S1200000x128, .f32⟩
  | .hbm, ⟨21, _⟩ => ⟨S1x128, .f32⟩
  | .hbm, ⟨22, _⟩ => ⟨S1200000x128, .f32⟩
  | .hbm, ⟨23, _⟩ => ⟨S1200000x128, .f32⟩
  | .hbm, ⟨24, _⟩ => ⟨S_, .f32⟩
  | .hbm, ⟨25, _⟩ => ⟨S1200000, .f32⟩
  | .hbm, ⟨26, _⟩ => ⟨S1200000x1, .f32⟩
  | .hbm, ⟨27, _⟩ => ⟨S_, .f32⟩
  | .hbm, ⟨28, _⟩ => ⟨S1200000x1, .f32⟩
  | .hbm, ⟨29, _⟩ => ⟨S1200000x1, .f32⟩
  | .hbm, ⟨30, _⟩ => ⟨S1200000x128, .f32⟩
  | .hbm, ⟨31, _⟩ => ⟨S1200000x128, .f32⟩
  | .hbm, ⟨32, _⟩ => ⟨S1200000x128, .f32⟩
  | .hbm, ⟨33, _⟩ => ⟨S_, .f32⟩
  | .hbm, ⟨34, _⟩ => ⟨S1200000, .f32⟩
  | .hbm, ⟨35, _⟩ => ⟨S1200000x1, .f32⟩
  | .hbm, ⟨36, _⟩ => ⟨S_, .f32⟩
  | .hbm, ⟨37, _⟩ => ⟨S1200000x1, .f32⟩
  | .hbm, ⟨38, _⟩ => ⟨S1200000x1, .f32⟩
  | .hbm, ⟨39, _⟩ => ⟨S1200000x128, .f32⟩
  | .hbm, ⟨40, _⟩ => ⟨S1200000x128, .f32⟩
  | .hbm, ⟨41, _⟩ => ⟨S_, .f32⟩
  | .hbm, ⟨42, _⟩ => ⟨S1200000x1, .f32⟩
  | .hbm, ⟨43, _⟩ => ⟨S1200000x1, .f32⟩
  | .hbm, ⟨44, _⟩ => ⟨S1200000x1, .f32⟩
  | .hbm, ⟨45, _⟩ => ⟨S1200000x128, .f32⟩
  | .hbm, ⟨46, _⟩ => ⟨S1200000x128, .f32⟩
  | .hbm, ⟨47, _⟩ => ⟨S1x128, .f32⟩
  | .hbm, ⟨48, _⟩ => ⟨S1200000x128, .f32⟩
  | .hbm, ⟨49, _⟩ => ⟨S1200000x128, .f32⟩
  | .hbm, ⟨50, _⟩ => ⟨S1x128, .f32⟩
  | .hbm, ⟨51, _⟩ => ⟨S1200000x128, .f32⟩
  | .hbm, ⟨52, _⟩ => ⟨S1200000x128, .f32⟩
  | .hbm, ⟨53, _⟩ => ⟨S1200000x64, .f32⟩
  | .hbm, ⟨54, _⟩ => ⟨S1200000x64, .f32⟩
  | .hbm, ⟨55, _⟩ => ⟨S1200000x64, .f32⟩
  | .hbm, ⟨56, _⟩ => ⟨S1200000x64, .f32⟩
  | .hbm, ⟨57, _⟩ => ⟨S_, .f32⟩
  | .hbm, ⟨58, _⟩ => ⟨S1200000x64, .f32⟩
  | .hbm, ⟨59, _⟩ => ⟨S1200000x64, .f32⟩
  | .hbm, ⟨60, _⟩ => ⟨S_, .f32⟩
  | .hbm, ⟨61, _⟩ => ⟨S1200000x64, .f32⟩
  | .hbm, ⟨62, _⟩ => ⟨S1200000x64, .f32⟩
  | .hbm, ⟨63, _⟩ => ⟨S1200000x64, .f32⟩
  | .hbm, ⟨64, _⟩ => ⟨S1200000x64, .f32⟩
  | .hbm, ⟨65, _⟩ => ⟨S_, .f32⟩
  | .hbm, ⟨66, _⟩ => ⟨S100000x64, .f32⟩
  | .hbm, ⟨67, _⟩ => ⟨S1200000x1, .i32⟩
  | .hbm, ⟨68, _⟩ => ⟨S100000x64, .f32⟩
  | .hbm, ⟨69, _⟩ => ⟨S_, .f32⟩
  | .hbm, ⟨70, _⟩ => ⟨S100000, .f32⟩
  | .hbm, ⟨71, _⟩ => ⟨S100000x1, .f32⟩
  | .hbm, ⟨72, _⟩ => ⟨S_, .f32⟩
  | .hbm, ⟨73, _⟩ => ⟨S100000x1, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x1, .f32⟩
  | .hbm, ⟨88, _⟩ => ⟨S100000x1, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  concatenates_S1200000x64_S1200000x64_S1200000x128_d1 : Shape.Concatenates [S1200000x64, S1200000x64] S1200000x128 1
  transposes_S128x128_S128x128_1_0 : S128x128.Transposes [1, 0] S128x128
  bcast_S128_S1x128_1 : S128.BroadcastsInDim S1x128 (![1] : Fin 1 → Fin S1x128.rank)
  bcast_S1x128_S1200000x128_0_1 : S1x128.BroadcastsInDim S1200000x128 (![0, 1] : Fin 2 → Fin S1200000x128.rank)
  reducesTo_S1200000x128_S1200000_d1 : S1200000x128.ReducesTo [1] S1200000
  h_S_ : 0 < S_.numel
  bcast_S_S1200000x1 : S_.BroadcastsInDim S1200000x1 (![] : Fin 0 → Fin S1200000x1.rank)
  bcast_S1200000x1_S1200000x128_0_1 : S1200000x1.BroadcastsInDim S1200000x128 (![0, 1] : Fin 2 → Fin S1200000x128.rank)
  slices_S1200000x128_S1200000x64_0_0 : S1200000x128.Slices ![0, 0] S1200000x64
  slices_S1200000x128_S1200000x64_0_64 : S1200000x128.Slices ![0, 64] S1200000x64
  bcast_S_S1200000x64 : S_.BroadcastsInDim S1200000x64 (![] : Fin 0 → Fin S1200000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  dot_S1200000x128_S128x128_S1200000x128_1_0_0_1_n_n_wf : DotDims.WF S1200000x128 S128x128 S1200000x128 [1] [0] [0] [1] [] []
  scatter_S100000x64_S1200000x1_S1200000x64_1_0_0_1_wf : ScatterDims.WF S100000x64 S1200000x1 S1200000x64 [1] [0] [0] 1

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def dot_S1200000x128_S128x128_S1200000x128_1_0_0_1_n_n : DotDims S1200000x128 S128x128 S1200000x128 where
  lhsContracting := [1]
  rhsContracting := [0]
  lhsNonContracting := [0]
  rhsNonContracting := [1]
  lhsBatch := []
  rhsBatch := []
  wf := dot_S1200000x128_S128x128_S1200000x128_1_0_0_1_n_n_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The idealized kernel's run with its result named.

  The program is a stretch of host operations, the message kernel's region, a second stretch (the scatter-add of the
  messages and two reshapes), and the node kernel's region. Every weakly fair execution terminates without a fault, the
  nine argument arrays end as launched, and the result array ends holding the last region's exit contents: the
  contents the buffers have after the four segments, folded from the launch memory.
-/
import proofs.«168490_j36069135352226_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the buffer
    contents after the last segment, and each argument array ends as launched. -/
theorem run : θ_run defs (onTc (τ := τ) (main (F := F))) ⟨m, fun _ => 0, ρ⟩ (fun r => ∀ c : Dev nD,
      r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Spec.lean ====
/-
  The mathematics both programs compute, one row at a time, on the extended reals.

  A layer norm of a row `y` of `n` numbers with divisor `d` and offset `e`: the mean is the row's sum divided by `d`, the
  variance the sum of squared deviations from the mean divided by `d`, and entry `c` of the result is
  `(y c - mean) * rsqrt (variance + e) * gain c + shift c`. A message is the logistic function of one normalised entry
  times the hyperbolic tangent of another. The pre-activation of an edge is a row of a product with a weight matrix plus
  a bias; taken over a row that is two rows laid end to end, the product's sum splits into the two rows' sums, which is
  the one law that joins the two programs — a regrouping of a finite sum, valid for all extended reals.
-/
import Idealize.ShloMosaic.PureOps.Ideal
import Idealize.ShloMosaic.PureOps.Ideal.Laws

noncomputable section

open scoped BigOperators

namespace Cert.Spec

open Idealize.ShloMosaic

variable {n : ℕ}

/-- The mean of a row: its sum divided by `d`. -/
def mean (d : EReal) (y : Fin n → EReal) : EReal := Ideal.div (∑ k, y k) d

/-- The biased variance of a row: the sum of its squared deviations from the mean, divided by `d`. -/
def var (d : EReal) (y : Fin n → EReal) : EReal := Ideal.div (∑ k, (y k - mean d y) * (y k - mean d y)) d

/-- The row centred at its mean, scaled by the reciprocal square root of (variance + `e`), times a gain. -/
def normGain (d e : EReal) (y g : Fin n → EReal) (c : Fin n) : EReal :=
  (y c - mean d y) * Ideal.rsqrt (var d y + e) * g c

/-- The layer norm of a row: the scaled row plus a shift. -/
def lnorm (d e : EReal) (y g b : Fin n → EReal) (c : Fin n) : EReal := normGain d e y g c + b c

/-- A gated message: the logistic function of `a` times the hyperbolic tangent of `b`. -/
def gate (a b : EReal) : EReal := Ideal.logistic a * Ideal.tanh b

/-- The logistic function is `1 / (1 + exp (-x))` on every extended real. -/
theorem logistic_eq (x : EReal) : Ideal.logistic x = Ideal.div 1 (1 + Ideal.exp (-x)) := rfl

/-- A sum over `m + n` terms is the sum of its first `m` and its last `n` terms. -/
theorem sum_halves {m k : ℕ} (f : Fin (m + k) → EReal) :
    ∑ i : Fin (m + k), f i = (∑ i : Fin m, f (Fin.castAdd k i)) + ∑ i : Fin k, f (Fin.natAdd m i) :=
  Fin.sum_univ_add f

/-- Column `j` of the first half of a row of 128. -/
def lo (j : Fin 64) : Fin 128 := ⟨j.val, by have := j.isLt; omega⟩

/-- Column `j` of the second half of a row of 128. -/
def hi (j : Fin 64) : Fin 128 := ⟨64 + j.val, by have := j.isLt; omega⟩

/-- A sum over 128 terms is the sum over its first 64 plus the sum over its last 64. -/
theorem sum_lo_hi (f : Fin 128 → EReal) : ∑ k : Fin 128, f k = (∑ k : Fin 64, f (lo k)) + ∑ k : Fin 64, f (hi k) :=
  Fin.sum_univ_add (a := 64) (b := 64) f

/-- The divisor of the 128-wide rows, the divisor of the 64-wide rows, and the offset under the square root: the values
    of the three words both programs print. -/
abbrev d128 : EReal := Ideal.ofBits .f32 0x43000000#32
abbrev d64 : EReal := Ideal.ofBits .f32 0x42800000#32
abbrev eps : EReal := Ideal.ofBits .f32 0x3727C5AC#32

end Cert.Spec

end
-- ==== Proof.LibTileNorm.lean ====
/-
  A layer norm over the last axis of an [a, n] tile, as a kernel body spells it, read at an entry.

  The row mean is the row sum (a reduction over the last axis) kept as a column [a, 1], divided by a splat scalar and
  broadcast back along the rows; the scale is the reciprocal square root of (the row sum of squared deviations, kept
  as a column and divided by the same scalar, plus a splat offset), broadcast the same way; the result is the tile
  minus its mean, times the scale, times a gain row [1, n] broadcast down the rows. At the extended reals, entry (p, c)
  is `Cert.Spec.normGain` of row p — the mean, the variance and the scale of that row alone.
-/
import Idealize.ShloMosaic.Lib.Pipeline.Value
import Idealize.ShloMosaic.Lib.ValueIdx
import Idealize.ShloMosaic.Lib.ValueLayout
import Idealize.ShloMosaic.PureOps.Ideal.Laws
import proofs.«168490_j36069135352226_2_alg».proof.Proof.LibKeepdims
import proofs.«168490_j36069135352226_2_alg».proof.Proof.Spec

noncomputable section

open scoped BigOperators

namespace Cert.Lib

open Idealize.ShloMosaic Idealize.ShloMosaic.ValueIdx

variable {a n : ℕ} {φ : FTy}

/-- The row mean of a tile, kept as a column, divided by the splat `s` and broadcast along the rows. -/
def tileMean (y : FVec Ideal ⟨2, ![a, n]⟩ φ) (acc : BitVec φ.bits) (s : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩) : FVec Ideal ⟨2, ![a, n]⟩ φ :=
  broadcastTo ⟨2, ![a, n]⟩ (divf (shapeCast ⟨2, ![a, 1]⟩ (multiReduction .add [1] ⟨1, ![a]⟩ y acc h hφ hacc) h2)
    (broadcast ⟨2, ![a, 1]⟩ s)) h3

/-- At (p, c) it is the mean of row p. -/
theorem tileMean_apply (y : FVec Ideal ⟨2, ![a, n]⟩ φ) (acc : BitVec φ.bits) (s : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩) (p : Fin a) (c : Fin n) :
    tileMean y acc s h hφ hacc h2 h3 (ix2 p c) = Cert.Spec.mean s (fun k => y (ix2 p k)) :=
  (broadcastTo_a1_ab_apply _ h3 p c).trans
    (congrArg (fun t => Ideal.div t s) ((shapeCast_a_a1_apply _ h2 p 0).trans (rowSum_apply y acc h hφ hacc p)))

/-- The reciprocal square root of (the row sum of `z` kept as a column, divided by the splat `s`, plus the splat `e`),
    broadcast along the rows. -/
def tileRstd (z : FVec Ideal ⟨2, ![a, n]⟩ φ) (acc : BitVec φ.bits) (s e : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩) : FVec Ideal ⟨2, ![a, n]⟩ φ :=
  broadcastTo ⟨2, ![a, n]⟩ (rsqrt (addf (divf (shapeCast ⟨2, ![a, 1]⟩ (multiReduction .add [1] ⟨1, ![a]⟩ z acc h hφ hacc) h2)
    (broadcast ⟨2, ![a, 1]⟩ s)) (broadcast ⟨2, ![a, 1]⟩ e))) h3

/-- At (p, c) it is the reciprocal square root of (row p's sum over `s`, plus `e`). -/
theorem tileRstd_apply (z : FVec Ideal ⟨2, ![a, n]⟩ φ) (acc : BitVec φ.bits) (s e : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩) (p : Fin a) (c : Fin n) :
    tileRstd z acc s e h hφ hacc h2 h3 (ix2 p c) = Ideal.rsqrt (Ideal.div (∑ k : Fin n, z (ix2 p k)) s + e) :=
  (broadcastTo_a1_ab_apply _ h3 p c).trans
    (congrArg (fun t => Ideal.rsqrt (Ideal.div t s + e))
      ((shapeCast_a_a1_apply _ h2 p 0).trans (rowSum_apply z acc h hφ hacc p)))

/-- The tile centred at its row means, scaled row by row, times a gain row broadcast down the rows. -/
def tileNormGain (y : FVec Ideal ⟨2, ![a, n]⟩ φ) (g : FVec Ideal ⟨2, ![1, n]⟩ φ) (acc : BitVec φ.bits) (s e : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩)
    (h4 : (⟨2, ![1, n]⟩ : Shape).Broadcasts ⟨2, ![a, n]⟩) : FVec Ideal ⟨2, ![a, n]⟩ φ :=
  mulf (mulf (subf y (tileMean y acc s h hφ hacc h2 h3))
      (tileRstd (mulf (subf y (tileMean y acc s h hφ hacc h2 h3)) (subf y (tileMean y acc s h hφ hacc h2 h3))) acc s e h hφ hacc h2 h3))
    (broadcastTo ⟨2, ![a, n]⟩ g h4)

/-- At (p, c) it is the normalised row p at c times the gain at c. -/
theorem tileNormGain_apply (y : FVec Ideal ⟨2, ![a, n]⟩ φ) (g : FVec Ideal ⟨2, ![1, n]⟩ φ) (acc : BitVec φ.bits) (s e : Ideal φ)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, n]⟩)
    (h4 : (⟨2, ![1, n]⟩ : Shape).Broadcasts ⟨2, ![a, n]⟩) (p : Fin a) (c : Fin n) :
    tileNormGain y g acc s e h hφ hacc h2 h3 h4 (ix2 p c)
      = Cert.Spec.normGain s e (fun k => y (ix2 p k)) (fun k => g (ix2 (0 : Fin 1) k)) c := by
  have hz : ∀ k : Fin n,
      (mulf (subf y (tileMean y acc s h hφ hacc h2 h3)) (subf y (tileMean y acc s h hφ hacc h2 h3))) (ix2 p k)
        = (y (ix2 p k) - Cert.Spec.mean s (fun k => y (ix2 p k))) * (y (ix2 p k) - Cert.Spec.mean s (fun k => y (ix2 p k))) :=
    fun k => by
      show (y (ix2 p k) - tileMean y acc s h hφ hacc h2 h3 (ix2 p k)) * (y (ix2 p k) - tileMean y acc s h hφ hacc h2 h3 (ix2 p k)) = _
      rw [tileMean_apply]
  show (y (ix2 p c) - tileMean y acc s h hφ hacc h2 h3 (ix2 p c))
      * tileRstd (mulf (subf y (tileMean y acc s h hφ hacc h2 h3)) (subf y (tileMean y acc s h hφ hacc h2 h3))) acc s e h hφ hacc h2 h3 (ix2 p c)
      * broadcastTo ⟨2, ![a, n]⟩ g h4 (ix2 p c) = _
  rw [tileMean_apply, tileRstd_apply, broadcastTo_1b_ab_apply]
  simp only [hz]
  rfl

end Cert.Lib

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.MsgTile.lean ====
/-
  The message kernel's body at one grid point, read at an entry.

  From its blocks — 12000 gathered node rows `x0`, 12000 edge rows `x1`, the two halves `x2`, `x3` of the transposed
  weight matrix, the bias row `x4`, the gain row `x5` and the shift row `x6` — the body computes, for row p, the
  pre-activation `(x0 p) · x2 + (x1 p) · x3 + x4` (128 numbers), its layer norm with gain and shift, and stores at (p, j)
  the logistic function of the normalised entry j times the hyperbolic tangent of the normalised entry 64 + j.
-/
import proofs.«168490_j36069135352226_2_alg».proof.Proof.Gen.KernelIdeal.Skeleton
import proofs.«168490_j36069135352226_2_alg».proof.Proof.LibTileNorm
import proofs.«168490_j36069135352226_2_alg».proof.Proof.LibMatmul2
import proofs.«168490_j36069135352226_2_alg».proof.Proof.Spec
import Idealize.ShloMosaic.Lib.ValueLayout

noncomputable section

open scoped BigOperators

namespace Cert.KernelIdeal.Tile

open Cert.KernelIdeal Cert.KernelIdeal.Gen Idealize.ShloMosaic Idealize.ShloMosaic.ValueIdx

variable (x0 x1 : FVec Ideal S12000x64 .f32) (x2 x3 : FVec Ideal S64x128 .f32) (x4 x5 x6 : FVec Ideal S1x128 .f32)

/-- The pre-activation tile: the gathered rows times the first half of the weights, plus the edge rows times the second
    half, plus the bias row down the rows. -/
def preTile : FVec Ideal S12000x128 .f32 :=
  addf (addf (matmul (φ₁ := .f32) (φ₂ := .f32) dot_S12000x64_S64x128_S12000x128_1_0_0_1_n_n none (shapeCast S12000x64 x0 shapeCasts_S12000x64_S12000x64)
        (shapeCast S64x128 x2 shapeCasts_S64x128_S64x128) (constant S12000x128 .f32 0x00000000#32))
      (matmul (φ₁ := .f32) (φ₂ := .f32) dot_S12000x64_S64x128_S12000x128_1_0_0_1_n_n none x1 (shapeCast S64x128 x3 shapeCasts_S64x128_S64x128) (constant S12000x128 .f32 0x00000000#32)))
    (broadcastTo S12000x128 (shapeCast S1x128 x4 shapeCasts_S1x128_S1x128) broadcasts_S1x128_S12000x128)

/-- Row p of the pre-activation as a function of the column. -/
def preRow (p : Fin 12000) : Fin 128 → EReal := fun c =>
  (∑ k : Fin 64, x0 (ix2 p k) * x2 (ix2 k c)) + (∑ k : Fin 64, x1 (ix2 p k) * x3 (ix2 k c)) + x4 (ix2 (0 : Fin 1) c)

theorem preTile_apply (p : Fin 12000) (c : Fin 128) : preTile x0 x1 x2 x3 x4 (ix2 p c) = preRow x0 x1 x2 x3 x4 p c := by
  unfold preTile preRow
  rw [shapeCast_self, shapeCast_self, shapeCast_self, shapeCast_self]
  show matmul (φ₁ := .f32) (φ₂ := .f32) dot_S12000x64_S64x128_S12000x128_1_0_0_1_n_n none x0 x2 (constant S12000x128 .f32 0x00000000#32) (ix2 p c)
      + matmul (φ₁ := .f32) (φ₂ := .f32) dot_S12000x64_S64x128_S12000x128_1_0_0_1_n_n none x1 x3 (constant S12000x128 .f32 0x00000000#32) (ix2 p c)
      + broadcastTo S12000x128 x4 broadcasts_S1x128_S12000x128 (ix2 p c) = _
  rw [show dot_S12000x64_S64x128_S12000x128_1_0_0_1_n_n = Cert.Lib.plain2 dot_S12000x64_S64x128_S12000x128_1_0_0_1_n_n_wf from rfl,
    Cert.Lib.matmul2_zero_apply, Cert.Lib.matmul2_zero_apply, broadcastTo_1b_ab_apply]

/-- The body's first payload is the pre-activation tile normalised row by row, times the gain row. -/
theorem pay2_eq : k0_pay2 (F := Ideal) x0 x1 x2 x3 x4 x5
    = Cert.Lib.tileNormGain (preTile x0 x1 x2 x3 x4) (shapeCast S1x128 x5 shapeCasts_S1x128_S1x128) 0x00000000#32
        (Scalar.ofBits .f32 0x43000000#32) (Scalar.ofBits .f32 0x3727C5AC#32)
        reduces_S12000x128_S12000 (.inl rfl) rfl shapeCasts_S12000_S12000x1 broadcasts_S12000x1_S12000x128
        broadcasts_S1x128_S12000x128 := rfl

theorem pay2_apply (p : Fin 12000) (c : Fin 128) :
    k0_pay2 (F := Ideal) x0 x1 x2 x3 x4 x5 (ix2 p c)
      = Cert.Spec.normGain Cert.Spec.d128 Cert.Spec.eps (preRow x0 x1 x2 x3 x4 p) (fun k => x5 (ix2 (0 : Fin 1) k)) c :=
  (congrFun (pay2_eq x0 x1 x2 x3 x4 x5) (ix2 p c)).trans
    ((Cert.Lib.tileNormGain_apply (preTile x0 x1 x2 x3 x4) (shapeCast S1x128 x5 shapeCasts_S1x128_S1x128) 0x00000000#32
        (Scalar.ofBits .f32 0x43000000#32) (Scalar.ofBits .f32 0x3727C5AC#32)
        reduces_S12000x128_S12000 (.inl rfl) rfl shapeCasts_S12000_S12000x1 broadcasts_S12000x1_S12000x128
        broadcasts_S1x128_S12000x128 p c).trans (by
      rw [shapeCast_self]
      simp only [preTile_apply]
      rfl))

/-- What the body stores at (p, j): the gate of the two normalised entries j and 64 + j of row p. -/
theorem msg_apply (p : Fin 12000) (j : Fin 64) :
    k0_pay1 (F := Ideal) (k0_pay2 (F := Ideal) x0 x1 x2 x3 x4 x5) (k0_pay3 (F := Ideal) x6) (ix2 p j)
      = Cert.Spec.gate
          (Cert.Spec.lnorm Cert.Spec.d128 Cert.Spec.eps (preRow x0 x1 x2 x3 x4 p) (fun k => x5 (ix2 (0 : Fin 1) k))
            (fun k => x6 (ix2 (0 : Fin 1) k)) (Cert.Spec.lo j))
          (Cert.Spec.lnorm Cert.Spec.d128 Cert.Spec.eps (preRow x0 x1 x2 x3 x4 p) (fun k => x5 (ix2 (0 : Fin 1) k))
            (fun k => x6 (ix2 (0 : Fin 1) k)) (Cert.Spec.hi j)) := by
  unfold k0_pay1 k0_pay3
  rw [shapeCast_self]
  show FloatOps.logistic (extractStridedSlice S12000x64 ![0, 0]
        (addf (k0_pay2 (F := Ideal) x0 x1 x2 x3 x4 x5) (broadcastTo S12000x128 x6 broadcasts_S1x128_S12000x128)) slices_S12000x128_o0_0_S12000x64 (ix2 p j))
      * FloatOps.tanh (extractStridedSlice S12000x64 ![0, 64]
        (addf (k0_pay2 (F := Ideal) x0 x1 x2 x3 x4 x5) (broadcastTo S12000x128 x6 broadcasts_S1x128_S12000x128)) slices_S12000x128_o0_64_S12000x64 (ix2 p j)) = _
  rw [slice2_axis1_apply 0 _ _ p j (Cert.Spec.lo j) (Nat.zero_add _).symm,
    slice2_axis1_apply 64 _ _ p j (Cert.Spec.hi j) rfl]
  show Ideal.logistic (k0_pay2 (F := Ideal) x0 x1 x2 x3 x4 x5 (ix2 p (Cert.Spec.lo j)) + broadcastTo S12000x128 x6 broadcasts_S1x128_S12000x128 (ix2 p (Cert.Spec.lo j)))
      * Ideal.tanh (k0_pay2 (F := Ideal) x0 x1 x2 x3 x4 x5 (ix2 p (Cert.Spec.hi j)) + broadcastTo S12000x128 x6 broadcasts_S1x128_S12000x128 (ix2 p (Cert.Spec.hi j))) = _
  rw [pay2_apply, pay2_apply, broadcastTo_1b_ab_apply, broadcastTo_1b_ab_apply]
  rfl

end Cert.KernelIdeal.Tile

end
-- ==== Proof.MsgArray.lean ====
/-
  The message array after the first region: one function of the arrays the region finds.

  Grid point t reads rows 12000 t … 12000 t + 11999 of the gathered rows and of the edge rows, and the whole of the five
  small arrays (their block index is (0, 0) at every point); it writes back the same rows of the message array. So row r
  of the message array depends on row r of the two big operands only, the 100 written blocks tile the array, and the
  array ends holding `msgG`: at (r, j) the gate of the normalised entries j and 64 + j of row r's pre-activation.
-/
import proofs.«168490_j36069135352226_2_alg».proof.Proof.Gen.KernelIdeal.Frame
import proofs.«168490_j36069135352226_2_alg».proof.Proof.MsgTile
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

/-- Row r of the pre-activation, from the whole operand arrays. -/
def msgPre (g e : S1200000x64.Idx → Elt Ideal .f32) (w8 w9 : S64x128.Idx → Elt Ideal .f32) (b10 : S1x128.Idx → Elt Ideal .f32)
    (r : Fin 1200000) : Fin 128 → EReal := fun c =>
  (∑ k : Fin 64, g (ix2 r k) * w8 (ix2 k c)) + (∑ k : Fin 64, e (ix2 r k) * w9 (ix2 k c)) + b10 (ix2 (0 : Fin 1) c)

/-- The message at row r, column j. -/
def msgAt (g e : S1200000x64.Idx → Elt Ideal .f32) (w8 w9 : S64x128.Idx → Elt Ideal .f32) (b10 g11 b12 : S1x128.Idx → Elt Ideal .f32)
    (r : Fin 1200000) (j : Fin 64) : EReal :=
  Cert.Spec.gate
    (Cert.Spec.lnorm Cert.Spec.d128 Cert.Spec.eps (msgPre g e w8 w9 b10 r) (fun k => g11 (ix2 (0 : Fin 1) k))
      (fun k => b12 (ix2 (0 : Fin 1) k)) (Cert.Spec.lo j))
    (Cert.Spec.lnorm Cert.Spec.d128 Cert.Spec.eps (msgPre g e w8 w9 b10 r) (fun k => g11 (ix2 (0 : Fin 1) k))
      (fun k => b12 (ix2 (0 : Fin 1) k)) (Cert.Spec.hi j))

/-- The whole message array. -/
def msgG (g e : S1200000x64.Idx → Elt Ideal .f32) (w8 w9 : S64x128.Idx → Elt Ideal .f32) (b10 g11 b12 : S1x128.Idx → Elt Ideal .f32) :
    S1200000x64.Idx → Elt Ideal .f32 :=
  fun i => msgAt g e w8 w9 b10 g11 b12 ⟨(i 0).val, (i 0).isLt⟩ ⟨(i 1).val, (i 1).isLt⟩

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three big windows move with the point along the rows, the five small ones
    stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The row of the big arrays that row p of point t's block is. -/
def rowOf (t : Fin cfg0.N) (p : Fin 12000) : Fin 1200000 :=
  ⟨t.val * 12000 + p.val, by have h : t.val < 100 := lt_of_lt_of_eq t.isLt N_0; have := p.isLt; omega⟩

theorem iblk0_0_apply (c : Dev nD) (t : Fin cfg0.N) (p : Fin 12000) (k : Fin 64) :
    (iblk0 V c 0 t : Vec Ideal S12000x64 .f32) (ix2 p k) = (V c main_v6 : S1200000x64.Idx → Elt Ideal .f32) (ix2 (rowOf t p) k) := by
  obtain ⟨e0, e1, -⟩ := idx_facts0 t
  unfold iblk0
  rw [View.read_apply]
  show V c main_v6 _ = V c main_v6 _
  congr 1
  funext a
  apply Fin.ext
  match a with
  | ⟨0, _⟩ => show win0_0.index t (0 : Fin 2) * 12000 + 1 * p.val = t.val * 12000 + p.val; rw [e0]; omega
  | ⟨1, _⟩ => show win0_0.index t (1 : Fin 2) * 64 + 1 * k.val = k.val; rw [e1]; omega

theorem iblk0_1_apply (c : Dev nD) (t : Fin cfg0.N) (p : Fin 12000) (k : Fin 64) :
    (iblk0 V c 1 t : Vec Ideal S12000x64 .f32) (ix2 p k) = (V c main_arg1 : S1200000x64.Idx → Elt Ideal .f32) (ix2 (rowOf t p) k) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t (0 : Fin 2) * 12000 + 1 * p.val = t.val * 12000 + p.val; rw [e0]; omega
  | ⟨1, _⟩ => show win0_1.index t (1 : Fin 2) * 64 + 1 * k.val = k.val; rw [e1]; omega

theorem iblk0_2_apply (c : Dev nD) (t : Fin cfg0.N) (k : Fin 64) (q : Fin 128) :
    (iblk0 V c 2 t : Vec Ideal S64x128 .f32) (ix2 k q) = (V c main_v8 : S64x128.Idx → Elt Ideal .f32) (ix2 k q) := by
  obtain ⟨-, -, -, -, -, -, e0, e1, -, -, -, -, -, -, -, -⟩ := idx_facts0 t
  unfold iblk0
  rw [View.read_apply]
  show V c main_v8 _ = V c main_v8 _
  congr 1
  funext a
  apply Fin.ext
  match a with
  | ⟨0, _⟩ => show win0_2.index t (0 : Fin 2) * 64 + 1 * k.val = k.val; rw [e0]; omega
  | ⟨1, _⟩ => show win0_2.index t (1 : Fin 2) * 128 + 1 * q.val = q.val; rw [e1]; omega

theorem iblk0_3_apply (c : Dev nD) (t : Fin cfg0.N) (k : Fin 64) (q : Fin 128) :
    (iblk0 V c 3 t : Vec Ideal S64x128 .f32) (ix2 k q) = (V c main_v9 : S64x128.Idx → Elt Ideal .f32) (ix2 k q) := by
  obtain ⟨-, -, -, -, -, -, -, -, e0, e1, -, -, -, -, -, -⟩ := idx_facts0 t
  unfold iblk0
  rw [View.read_apply]
  show V c main_v9 _ = V c main_v9 _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

theorem iblk0_4_apply (c : Dev nD) (t : Fin cfg0.N) (k : Fin 1) (q : Fin 128) :
    (iblk0 V c 4 t : Vec Ideal S1x128 .f32) (ix2 k q) = (V c main_v10 : S1x128.Idx → Elt Ideal .f32) (ix2 k q) := by
  obtain ⟨-, -, -, -, -, -, -, -, -, -, e0, e1, -, -, -, -⟩ := idx_facts0 t
  unfold iblk0
  rw [View.read_apply]
  show V c main_v10 _ = V c main_v10 _
  congr 1
  funext a
  apply Fin.ext
  match a with
  | ⟨0, _⟩ => show win0_4.index t (0 : Fin 2) * 1 + 1 * k.val = k.val; rw [e0]; omega
  | ⟨1, _⟩ => show win0_4.index t (1 : Fin 2) * 128 + 1 * q.val = q.val; rw [e1]; omega

theorem iblk0_5_apply (c : Dev nD) (t : Fin cfg0.N) (k : Fin 1) (q : Fin 128) :
    (iblk0 V c 5 t : Vec Ideal S1x128 .f32) (ix2 k q) = (V c main_v11 : S1x128.Idx → Elt Ideal .f32) (ix2 k q) := by
  obtain ⟨-, -, -, -, -, -, -, -, -, -, -, -, e0, e1, -, -⟩ := idx_facts0 t
  unfold iblk0
  rw [View.read_apply]
  show V c main_v11 _ = V c main_v11 _
  congr 1
  funext a
  apply Fin.ext
  match a with
  | ⟨0, _⟩ => show win0_5.index t (0 : Fin 2) * 1 + 1 * k.val = k.val; rw [e0]; omega
  | ⟨1, _⟩ => show win0_5.index t (1 : Fin 2) * 128 + 1 * q.val = q.val; rw [e1]; omega

theorem iblk0_6_apply (c : Dev nD) (t : Fin cfg0.N) (k : Fin 1) (q : Fin 128) :
    (iblk0 V c 6 t : Vec Ideal S1x128 .f32) (ix2 k q) = (V c main_v12 : S1x128.Idx → Elt Ideal .f32) (ix2 k q) := by
  obtain ⟨-, -, -, -, -, -, -, -, -, -, -, -, -, -, e0, e1⟩ := idx_facts0 t
  unfold iblk0
  rw [View.read_apply]
  show V c main_v12 _ = V c main_v12 _
  congr 1
  funext a
  apply Fin.ext
  match a with
  | ⟨0, _⟩ => show win0_6.index t (0 : Fin 2) * 1 + 1 * k.val = k.val; rw [e0]; omega
  | ⟨1, _⟩ => show win0_6.index t (1 : Fin 2) * 128 + 1 * q.val = q.val; rw [e1]; omega

/-- Where row p, column j of point t's output block lies in the message array. -/
theorem emb7 (t : Fin cfg0.N) (p : Fin 12000) (j : Fin 64) :
    ((cfg0.win 7).blk t).view.emb (ix2 p j) = (ix2 (rowOf t p) j : S1200000x64.Idx) := by
  obtain ⟨-, -, -, -, e0, e1, -⟩ := idx_facts0 t
  funext a
  apply Fin.ext
  match a with
  | ⟨0, _⟩ => show win0_7.index t (0 : Fin 2) * 12000 + 1 * p.val = t.val * 12000 + p.val; rw [e0]; omega
  | ⟨1, _⟩ => show win0_7.index t (1 : Fin 2) * 64 + 1 * j.val = j.val; rw [e1]; omega

/-- WHAT POINT t WRITES BACK is its block of the message array. -/
theorem flushed7_eq (c : Dev nD) (t : Fin cfg0.N) :
    (dat0 V c).flushed 7 t = ((cfg0.win 7).blk t).view.read (Elt Ideal)
      (msgG (V c main_v6) (V c main_arg1) (V c main_v8) (V c main_v9) (V c main_v10) (V c main_v11) (V c main_v12)) := by
  show (cfg0.win 7).cut (grid0.coords t) ((dat0 V c).after 7 t) = _
  rw [after0_7]
  unfold out0_7
  rw [View.canon_unit_zero hz]
  simp only [View.ld_unit_zero (S := S12000x64) hz, View.ld_unit_zero (S := S64x128) hz, View.ld_unit_zero (S := S1x128) hz]
  funext y
  obtain ⟨p, j, rfl⟩ : ∃ (p : Fin 12000) (j : Fin 64), y = ix2 p j := ⟨y 0, y 1, eq_ix2 y⟩
  refine (Cert.KernelIdeal.Tile.msg_apply (iblk0 V c 0 t) (iblk0 V c 1 t) (iblk0 V c 2 t) (iblk0 V c 3 t) (iblk0 V c 4 t)
    (iblk0 V c 5 t) (iblk0 V c 6 t) p j).trans ?_
  rw [View.read_apply, emb7]
  have hpre : Cert.KernelIdeal.Tile.preRow (iblk0 V c 0 t) (iblk0 V c 1 t) (iblk0 V c 2 t) (iblk0 V c 3 t) (iblk0 V c 4 t) p
      = msgPre (V c main_v6) (V c main_arg1) (V c main_v8) (V c main_v9) (V c main_v10) (rowOf t p) := by
    funext q
    unfold Cert.KernelIdeal.Tile.preRow msgPre
    simp only [iblk0_0_apply, iblk0_1_apply, iblk0_2_apply, iblk0_3_apply, iblk0_4_apply]
  rw [hpre]
  simp only [iblk0_5_apply, iblk0_6_apply]
  rfl

/-- An index of the message array is in point t's block iff each coordinate is in the block's range. -/
theorem mem_blk7 (t : Fin cfg0.N) (i : S1200000x64.Idx) :
    i ∈ ((cfg0.win 7).blk t).view.set ↔ ∀ a : Fin 2, win0_7.index t a * S12000x64.size a ≤ (i a).val
      ∧ (i a).val < win0_7.index t a * S12000x64.size a + S12000x64.size a := by
  show i ∈ ((View.whole main_v13).slice (win0_7.rect t)).set ↔ _
  rw [View.set_slice_whole, Rect.mem_set_unit]
  exact Iff.rfl

/-- The 100 blocks tile the message array: row r is in the block of point r / 12000. -/
theorem cover7 (i : S1200000x64.Idx) : ∃ t : Fin cfg0.N, (cfg0.win 7).flush t = true ∧ i ∈ ((cfg0.win 7).blk t).view.set := by
  have h0 : (i 0).val < 1200000 := (i 0).isLt
  have h1 : (i 1).val < 64 := (i 1).isLt
  have hN : cfg0.N = 100 := N_0
  let t : Fin cfg0.N := ⟨(i 0).val / 12000, by rw [hN]; omega⟩
  obtain ⟨-, -, -, -, e0, e1, -⟩ := idx_facts0 t
  refine ⟨t, flush0_7 t, ?_⟩
  rw [mem_blk7]
  intro a
  match a with
  | ⟨0, _⟩ =>
    show win0_7.index t (0 : Fin 2) * 12000 ≤ (i 0).val ∧ (i 0).val < win0_7.index t (0 : Fin 2) * 12000 + 12000
    rw [e0]; show (i 0).val / 12000 * 12000 ≤ (i 0).val ∧ (i 0).val < (i 0).val / 12000 * 12000 + 12000; omega
  | ⟨1, _⟩ =>
    show win0_7.index t (1 : Fin 2) * 64 ≤ (i 1).val ∧ (i 1).val < win0_7.index t (1 : Fin 2) * 64 + 64
    rw [e1]; omega

/-- THE MESSAGE ARRAY after the region, whatever contents `V` the region finds. -/
theorem final7 (c : Dev nD) : (dat0 V c).arrAt 7 cfg0.N
    = msgG (V c main_v6) (V c main_arg1) (V c main_v8) (V c main_v9) (V c main_v10) (V c main_v11) (V c main_v12) :=
  (dat0 V c).arrAt_eq_of_cover 7 _ (fun t _ => flushed7_eq V c t) cover7

end Cert.KernelIdeal.Arrays

end
-- ==== Proof.NodeTile.lean ====
/-
  The node kernel's body at one grid point, read at an entry.

  From its blocks — 10000 node rows `xn`, the 10000 aggregated rows `xa`, the gain row `xg` and the shift row `xb` — the
  body stores at (p, q) the hyperbolic tangent of the node entry plus the layer norm (over the 64 entries of row p of
  the aggregate) at q.
-/
import proofs.«168490_j36069135352226_2_alg».proof.Proof.Gen.KernelIdeal.Skeleton
import proofs.«168490_j36069135352226_2_alg».proof.Proof.LibTileNorm
import proofs.«168490_j36069135352226_2_alg».proof.Proof.Spec
import Idealize.ShloMosaic.Lib.ValueLayout

noncomputable section

open scoped BigOperators

namespace Cert.KernelIdeal.Tile

open Cert.KernelIdeal Cert.KernelIdeal.Gen Idealize.ShloMosaic Idealize.ShloMosaic.ValueIdx

variable (xa : FVec Ideal S10000x64 .f32) (xg xb : FVec Ideal S1x64 .f32) (xn : FVec Ideal S10000x64 .f32)

/-- The body's payload is the hyperbolic tangent of the node tile plus (the aggregate tile normalised row by row, times the
    gain row, plus the shift row). -/
theorem pay1_eq : k1_pay1 (F := Ideal) xa xg xb xn
    = tanh (addf xn (addf
        (Cert.Lib.tileNormGain (shapeCast S10000x64 xa shapeCasts_S10000x64_S10000x64) (shapeCast S1x64 xg shapeCasts_S1x64_S1x64)
          0x00000000#32 (Scalar.ofBits .f32 0x42800000#32) (Scalar.ofBits .f32 0x3727C5AC#32)
          reduces_S10000x64_S10000 (.inl rfl) rfl shapeCasts_S10000_S10000x1 broadcasts_S10000x1_S10000x64 broadcasts_S1x64_S10000x64)
        (broadcastTo S10000x64 (shapeCast S1x64 xb shapeCasts_S1x64_S1x64) broadcasts_S1x64_S10000x64))) := rfl

/-- What the body stores at (p, q). -/
theorem node_apply (p : Fin 10000) (q : Fin 64) :
    k1_pay1 (F := Ideal) xa xg xb xn (ix2 p q)
      = Ideal.tanh (xn (ix2 p q)
          + Cert.Spec.lnorm Cert.Spec.d64 Cert.Spec.eps (fun k => xa (ix2 p k)) (fun k => xg (ix2 (0 : Fin 1) k))
              (fun k => xb (ix2 (0 : Fin 1) k)) q) := by
  refine (congrFun (pay1_eq xa xg xb xn) (ix2 p q)).trans ?_
  have hn := Cert.Lib.tileNormGain_apply (shapeCast S10000x64 xa shapeCasts_S10000x64_S10000x64) (shapeCast S1x64 xg shapeCasts_S1x64_S1x64)
          0x00000000#32 (Scalar.ofBits .f32 0x42800000#32) (Scalar.ofBits .f32 0x3727C5AC#32)
          reduces_S10000x64_S10000 (.inl rfl) rfl shapeCasts_S10000_S10000x1 broadcasts_S10000x1_S10000x64 broadcasts_S1x64_S10000x64 p q
  have hb := broadcastTo_1b_ab_apply (shapeCast S1x64 xb shapeCasts_S1x64_S1x64) broadcasts_S1x64_S10000x64 p q
  refine (congrArg (fun t => Ideal.tanh (xn (ix2 p q) + t)) (congrArg₂ (· + ·) hn hb)).trans ?_
  rw [shapeCast_self, shapeCast_self, shapeCast_self]
  rfl

end Cert.KernelIdeal.Tile

end
-- ==== Proof.NodeArray.lean ====
/-
  The result array after the second region: one function of the arrays the region finds.

  Grid point t reads rows 10000 t … 10000 t + 9999 of the node array and of the aggregated array, and the whole gain and
  shift rows; it writes back the same rows of the result. Row r of the result depends on row r of the two big operands
  only, the 10 written blocks tile the array, and the array ends holding `nodeG`: at (r, q) the hyperbolic tangent of
  the node entry plus the layer norm of row r of the aggregate at q.
-/
import proofs.«168490_j36069135352226_2_alg».proof.Proof.Gen.KernelIdeal.Frame
import proofs.«168490_j36069135352226_2_alg».proof.Proof.NodeTile
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

/-- The result at row r, column q. -/
def nodeAt (node agg : S100000x64.Idx → Elt Ideal .f32) (g17 b18 : S1x64.Idx → Elt Ideal .f32) (r : Fin 100000) (q : Fin 64) : EReal :=
  Ideal.tanh (node (ix2 r q)
    + Cert.Spec.lnorm Cert.Spec.d64 Cert.Spec.eps (fun k => agg (ix2 r k)) (fun k => g17 (ix2 (0 : Fin 1) k))
        (fun k => b18 (ix2 (0 : Fin 1) k)) q)

/-- The whole result array. -/
def nodeG (node agg : S100000x64.Idx → Elt Ideal .f32) (g17 b18 : S1x64.Idx → Elt Ideal .f32) : S100000x64.Idx → Elt Ideal .f32 :=
  fun i => nodeAt node agg g17 b18 ⟨(i 0).val, (i 0).isLt⟩ ⟨(i 1).val, (i 1).isLt⟩

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the three big windows move with the point along the rows, the two small ones
    stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_4.index t (0 : Fin 2) = t.val ∧ win1_4.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The row of the big arrays that row p of point t's block is. -/
def rowOf1 (t : Fin cfg1.N) (p : Fin 10000) : Fin 100000 :=
  ⟨t.val * 10000 + p.val, by have h : t.val < 10 := lt_of_lt_of_eq t.isLt N_1; have := p.isLt; omega⟩

theorem iblk1_0_apply (c : Dev nD) (t : Fin cfg1.N) (p : Fin 10000) (k : Fin 64) :
    (iblk1 V c 0 t : Vec Ideal S10000x64 .f32) (ix2 p k) = (V c main_arg0 : S100000x64.Idx → Elt Ideal .f32) (ix2 (rowOf1 t p) k) := by
  obtain ⟨e0, e1, -, -, -, -, -, -, -, -⟩ := idx_facts1 t
  unfold iblk1
  rw [View.read_apply]
  show V c main_arg0 _ = V c main_arg0 _
  congr 1
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem iblk1_1_apply (c : Dev nD) (t : Fin cfg1.N) (p : Fin 10000) (k : Fin 64) :
    (iblk1 V c 1 t : Vec Ideal S10000x64 .f32) (ix2 p k) = (V c main_v16 : S100000x64.Idx → Elt Ideal .f32) (ix2 (rowOf1 t p) k) := by
  obtain ⟨-, -, e0, e1, -, -, -, -, -, -⟩ := idx_facts1 t
  unfold iblk1
  rw [View.read_apply]
  show V c main_v16 _ = V c main_v16 _
  congr 1
  funext a
  apply Fin.ext
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

theorem iblk1_2_apply (c : Dev nD) (t : Fin cfg1.N) (k : Fin 1) (q : Fin 64) :
    (iblk1 V c 2 t : Vec Ideal S1x64 .f32) (ix2 k q) = (V c main_v17 : S1x64.Idx → Elt Ideal .f32) (ix2 k q) := by
  obtain ⟨-, -, -, -, -, -, e0, e1, -, -⟩ := idx_facts1 t
  unfold iblk1
  rw [View.read_apply]
  show V c main_v17 _ = V c main_v17 _
  congr 1
  funext a
  apply Fin.ext
  match a with
  | ⟨0, _⟩ => show win1_2.index t (0 : Fin 2) * 1 + 1 * k.val = k.val; rw [e0]; omega
  | ⟨1, _⟩ => show win1_2.index t (1 : Fin 2) * 64 + 1 * q.val = q.val; rw [e1]; omega

theorem iblk1_3_apply (c : Dev nD) (t : Fin cfg1.N) (k : Fin 1) (q : Fin 64) :
    (iblk1 V c 3 t : Vec Ideal S1x64 .f32) (ix2 k q) = (V c main_v18 : S1x64.Idx → Elt Ideal .f32) (ix2 k q) := by
  obtain ⟨-, -, -, -, -, -, -, -, e0, e1⟩ := idx_facts1 t
  unfold iblk1
  rw [View.read_apply]
  show V c main_v18 _ = V c main_v18 _
  congr 1
  funext a
  apply Fin.ext
  match a with
  | ⟨0, _⟩ => show win1_3.index t (0 : Fin 2) * 1 + 1 * k.val = k.val; rw [e0]; omega
  | ⟨1, _⟩ => show win1_3.index t (1 : Fin 2) * 64 + 1 * q.val = q.val; rw [e1]; omega

/-- Where row p, column q of point t's output block lies in the result array. -/
theorem emb4 (t : Fin cfg1.N) (p : Fin 10000) (q : Fin 64) :
    ((cfg1.win 4).blk t).view.emb (ix2 p q) = (ix2 (rowOf1 t p) q : S100000x64.Idx) := by
  obtain ⟨-, -, -, -, e0, e1, -, -, -, -⟩ := idx_facts1 t
  funext a
  apply Fin.ext
  match a with
  | ⟨0, _⟩ => show win1_4.index t (0 : Fin 2) * 10000 + 1 * p.val = t.val * 10000 + p.val; rw [e0]; omega
  | ⟨1, _⟩ => show win1_4.index t (1 : Fin 2) * 64 + 1 * q.val = q.val; rw [e1]; omega

/-- WHAT POINT t WRITES BACK is its block of the result array. -/
theorem flushed4_eq (c : Dev nD) (t : Fin cfg1.N) :
    (dat1 V c).flushed 4 t = ((cfg1.win 4).blk t).view.read (Elt Ideal)
      (nodeG (V c main_arg0) (V c main_v16) (V c main_v17) (V c main_v18)) := by
  show (cfg1.win 4).cut (grid1.coords t) ((dat1 V c).after 4 t) = _
  rw [after1_4]
  unfold out1_4
  rw [View.canon_unit_zero hz1]
  simp only [View.ld_unit_zero (S := S10000x64) hz1, View.ld_unit_zero (S := S1x64) hz1]
  funext y
  obtain ⟨p, q, rfl⟩ : ∃ (p : Fin 10000) (q : Fin 64), y = ix2 p q := ⟨y 0, y 1, eq_ix2 y⟩
  refine (Cert.KernelIdeal.Tile.node_apply (iblk1 V c 1 t) (iblk1 V c 2 t) (iblk1 V c 3 t) (iblk1 V c 0 t) p q).trans ?_
  rw [View.read_apply, emb4]
  simp only [iblk1_0_apply, iblk1_1_apply, iblk1_2_apply, iblk1_3_apply]
  rfl

/-- An index of the result array is in point t's block iff each coordinate is in the block's range. -/
theorem mem_blk4 (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v19).slice (win1_4.rect t)).set ↔ _
  rw [View.set_slice_whole, Rect.mem_set_unit]
  exact Iff.rfl

/-- The 10 blocks tile the result array: row r is in the block of point r / 10000. -/
theorem cover4 (i : S100000x64.Idx) : ∃ t : Fin cfg1.N, (cfg1.win 4).flush t = true ∧ i ∈ ((cfg1.win 4).blk t).view.set := by
  have h0 : (i 0).val < 100000 := (i 0).isLt
  have h1 : (i 1).val < 64 := (i 1).isLt
  have hN : cfg1.N = 10 := N_1
  let t : Fin cfg1.N := ⟨(i 0).val / 10000, by rw [hN]; omega⟩
  obtain ⟨-, -, -, -, e0, e1, -, -, -, -⟩ := idx_facts1 t
  refine ⟨t, flush1_4 t, ?_⟩
  rw [mem_blk4]
  intro a
  match a with
  | ⟨0, _⟩ =>
    show win1_4.index t (0 : Fin 2) * 10000 ≤ (i 0).val ∧ (i 0).val < win1_4.index t (0 : Fin 2) * 10000 + 10000
    rw [e0]; show (i 0).val / 10000 * 10000 ≤ (i 0).val ∧ (i 0).val < (i 0).val / 10000 * 10000 + 10000; omega
  | ⟨1, _⟩ =>
    show win1_4.index t (1 : Fin 2) * 64 ≤ (i 1).val ∧ (i 1).val < win1_4.index t (1 : Fin 2) * 64 + 64
    rw [e1]; omega

/-- THE RESULT ARRAY after the region, whatever contents `V` the region finds. -/
theorem final4 (c : Dev nD) : (dat1 V c).arrAt 4 cfg1.N
    = nodeG (V c main_arg0) (V c main_v16) (V c main_v17) (V c main_v18) :=
  (dat1 V c).arrAt_eq_of_cover 4 _ (fun t _ => flushed4_eq V c t) cover4

end Cert.KernelIdeal.Arrays

end
-- ==== Proof.KernelValue.lean ====
/-
  The kernel's result as one function of the argument arrays.

  Read back from the last segment: the node region leaves `nodeG` of what it finds; it finds the node array as launched,
  the scatter-add (into zeros, by the raw edge indices) of the message array, and the gain and shift vectors recast as
  rows. The message region leaves `msgG` of what it finds: the gathered node rows, the edge array as launched, the two
  halves of the transposed weight matrix, and the bias, gain and shift vectors recast as rows.
-/
import proofs.«168490_j36069135352226_2_alg».proof.Proof.KernelRun
import proofs.«168490_j36069135352226_2_alg».proof.Proof.MsgArray
import proofs.«168490_j36069135352226_2_alg».proof.Proof.NodeArray
import Idealize.ShloMosaic.Lib.StableHlo.Run

set_option maxRecDepth 16384

noncomputable section

namespace Cert.KernelIdeal.RunValue

open Cert.KernelIdeal Cert.KernelIdeal.Gen Cert.KernelIdeal.Arrays Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## What the message region finds: the first stretch of host operations read back -/

/-- The edge indices with a negative index moved up by the number of nodes, as a column: what the gather is indexed by. -/
def gatherIdx (x8 : (⟨S1200000, .i32⟩ : BufTy).Contents (Elt Ideal)) : (⟨S1200000x1, .i32⟩ : BufTy).Contents (Elt Ideal) :=
  broadcastInDim S1200000x1 ![0] bcast_S1200000_S1200000x1_0
    (select (cmpi .slt x8 (broadcastInDim S1200000 ![] bcast_S_S1200000 (constantI S_ 32 0#32)))
      (addi x8 (broadcastInDim S1200000 ![] bcast_S_S1200000 (constantI S_ 32 100000#32))) x8)

/-- The gathered node rows. -/
def gathered (x0 : (⟨S100000x64, .f32⟩ : BufTy).Contents (Elt Ideal)) (x8 : (⟨S1200000, .i32⟩ : BufTy).Contents (Elt Ideal)) :
    (⟨S1200000x64, .f32⟩ : BufTy).Contents (Elt Ideal) :=
  Host.gather gather_S100000x64_S1200000x1_S1200000x64_1_0_n_n_0_1_164 x0 (gatherIdx x8)

/-- The transposed weight matrix. -/
def weightsT (x2 : (⟨S128x128, .f32⟩ : BufTy).Contents (Elt Ideal)) : (⟨S128x128, .f32⟩ : BufTy).Contents (Elt Ideal) :=
  transpose S128x128 [1, 0] x2 transposes_S128x128_S128x128_1_0

theorem V1_v6 : (V1 m ρ c main_v6 : (⟨S1200000x64, .f32⟩ : BufTy).Contents (Elt Ideal)) = gathered (m ((c : Thread nD τ).loc main_arg0)) (m ((c : Thread nD τ).loc main_arg8)) := by
  show StableHlo.after hostOps0 (W0 m ρ c) (Proc.devRef .tc main_v6) = _
  after_results
  rfl

theorem V1_arg1 : (V1 m ρ c main_arg1 : (⟨S1200000x64, .f32⟩ : BufTy).Contents (Elt Ideal)) = (m ((c : Thread nD τ).loc main_arg1)) := by
  show StableHlo.after hostOps0 (W0 m ρ c) (Proc.devRef .tc main_arg1) = _
  after_results

theorem V1_v8 : (V1 m ρ c main_v8 : (⟨S64x128, .f32⟩ : BufTy).Contents (Elt Ideal))
    = extractStridedSlice S64x128 ![0, 0] (weightsT (m ((c : Thread nD τ).loc main_arg2))) slices_S128x128_S64x128_0_0 := by
  show StableHlo.after hostOps0 (W0 m ρ c) (Proc.devRef .tc main_v8) = _
  after_results
  rfl

theorem V1_v9 : (V1 m ρ c main_v9 : (⟨S64x128, .f32⟩ : BufTy).Contents (Elt Ideal))
    = extractStridedSlice S64x128 ![64, 0] (weightsT (m ((c : Thread nD τ).loc main_arg2))) slices_S128x128_S64x128_64_0 := by
  show StableHlo.after hostOps0 (W0 m ρ c) (Proc.devRef .tc main_v9) = _
  after_results
  rfl

theorem V1_v10 : (V1 m ρ c main_v10 : (⟨S1x128, .f32⟩ : BufTy).Contents (Elt Ideal))
    = shapeCast S1x128 (m ((c : Thread nD τ).loc main_arg3)) shapeCasts_S128_S1x128 := by
  show StableHlo.after hostOps0 (W0 m ρ c) (Proc.devRef .tc main_v10) = _
  after_results
  rfl

theorem V1_v11 : (V1 m ρ c main_v11 : (⟨S1x128, .f32⟩ : BufTy).Contents (Elt Ideal))
    = shapeCast S1x128 (m ((c : Thread nD τ).loc main_arg4)) shapeCasts_S128_S1x128 := by
  show StableHlo.after hostOps0 (W0 m ρ c) (Proc.devRef .tc main_v11) = _
  after_results
  rfl

theorem V1_v12 : (V1 m ρ c main_v12 : (⟨S1x128, .f32⟩ : BufTy).Contents (Elt Ideal))
    = shapeCast S1x128 (m ((c : Thread nD τ).loc main_arg5)) shapeCasts_S128_S1x128 := by
  show StableHlo.after hostOps0 (W0 m ρ c) (Proc.devRef .tc main_v12) = _
  after_results
  rfl

/-- The message array as the first region leaves it. -/
def msgOf (x0 : (⟨S100000x64, .f32⟩ : BufTy).Contents (Elt Ideal)) (x1 : (⟨S1200000x64, .f32⟩ : BufTy).Contents (Elt Ideal))
    (x2 : (⟨S128x128, .f32⟩ : BufTy).Contents (Elt Ideal)) (x3 x4 x5 : (⟨S128, .f32⟩ : BufTy).Contents (Elt Ideal))
    (x8 : (⟨S1200000, .i32⟩ : BufTy).Contents (Elt Ideal)) : (⟨S1200000x64, .f32⟩ : BufTy).Contents (Elt Ideal) :=
  msgG (gathered x0 x8) x1 (extractStridedSlice S64x128 ![0, 0] (weightsT x2) slices_S128x128_S64x128_0_0)
    (extractStridedSlice S64x128 ![64, 0] (weightsT x2) slices_S128x128_S64x128_64_0)
    (shapeCast S1x128 x3 shapeCasts_S128_S1x128) (shapeCast S1x128 x4 shapeCasts_S128_S1x128) (shapeCast S1x128 x5 shapeCasts_S128_S1x128)

theorem W2_v13 : (W2 m ρ c (Proc.devRef .tc main_v13) : (⟨S1200000x64, .f32⟩ : BufTy).Contents (Elt Ideal))
    = msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (W2_arr m ρ c 7).trans ((final7 (V1 m ρ) c).trans ?_)
  rw [V1_v6, V1_arg1, V1_v8, V1_v9, V1_v10, V1_v11, V1_v12]
  rfl

/-! ## What the node region finds: the second stretch read back -/

/-- An argument no region writes and no host operation writes is, at the first region's exit, as launched. -/
theorem W2_arg (k : Ref sig .tc) (hk : ∀ w, Pipeline.arrRef spec0 w ≠ k)
    (h0 : StableHlo.after hostOps0 (W0 m ρ c) (Proc.devRef .tc k) = W0 m ρ c (Proc.devRef .tc k)) :
    W2 m ρ c (Proc.devRef .tc k) = m ((c : Thread nD τ).loc k) :=
  (W2_of_ne m ρ c k hk).trans h0

theorem W2_arg0 : W2 m ρ c (Proc.devRef .tc main_arg0) = (m ((c : Thread nD τ).loc main_arg0)) :=
  W2_arg m ρ c main_arg0 (by decide) (by after_results)
theorem W2_arg6 : W2 m ρ c (Proc.devRef .tc main_arg6) = (m ((c : Thread nD τ).loc main_arg6)) :=
  W2_arg m ρ c main_arg6 (by decide) (by after_results)
theorem W2_arg7 : W2 m ρ c (Proc.devRef .tc main_arg7) = (m ((c : Thread nD τ).loc main_arg7)) :=
  W2_arg m ρ c main_arg7 (by decide) (by after_results)
theorem W2_arg8 : W2 m ρ c (Proc.devRef .tc main_arg8) = (m ((c : Thread nD τ).loc main_arg8)) :=
  W2_arg m ρ c main_arg8 (by decide) (by after_results)

theorem V3_arg0 : (V3 m ρ c main_arg0 : (⟨S100000x64, .f32⟩ : BufTy).Contents (Elt Ideal)) = (m ((c : Thread nD τ).loc main_arg0)) := by
  show StableHlo.after hostOps1 (W2 m ρ c) (Proc.devRef .tc main_arg0) = _
  after_results
  exact W2_arg0 m ρ c

/-- The scatter-add of an array of message rows into zeros, by the raw edge indices. -/
def aggOf (x8 : (⟨S1200000, .i32⟩ : BufTy).Contents (Elt Ideal)) (u : (⟨S1200000x64, .f32⟩ : BufTy).Contents (Elt Ideal)) :
    (⟨S100000x64, .f32⟩ : BufTy).Contents (Elt Ideal) :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 x8) u

theorem V3_v16 : (V3 m ρ c main_v16 : (⟨S100000x64, .f32⟩ : BufTy).Contents (Elt Ideal))
    = aggOf (m ((c : Thread nD τ).loc main_arg8)) (msgOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8))) := by
  show StableHlo.after hostOps1 (W2 m ρ c) (Proc.devRef .tc main_v16) = _
  after_results
  rw [W2_arg8, W2_v13]
  rfl

theorem V3_v17 : (V3 m ρ c main_v17 : (⟨S1x64, .f32⟩ : BufTy).Contents (Elt Ideal)) = shapeCast S1x64 (m ((c : Thread nD τ).loc main_arg6)) shapeCasts_S64_S1x64 := by
  show StableHlo.after hostOps1 (W2 m ρ c) (Proc.devRef .tc main_v17) = _
  after_results
  rw [W2_arg6]
  rfl

theorem V3_v18 : (V3 m ρ c main_v18 : (⟨S1x64, .f32⟩ : BufTy).Contents (Elt Ideal)) = shapeCast S1x64 (m ((c : Thread nD τ).loc main_arg7)) shapeCasts_S64_S1x64 := by
  show StableHlo.after hostOps1 (W2 m ρ c) (Proc.devRef .tc main_v18) = _
  after_results
  rw [W2_arg7]
  rfl

/-- THE KERNEL'S RESULT as one function of the argument arrays. -/
def outOf (x0 : (⟨S100000x64, .f32⟩ : BufTy).Contents (Elt Ideal)) (x1 : (⟨S1200000x64, .f32⟩ : BufTy).Contents (Elt Ideal))
    (x2 : (⟨S128x128, .f32⟩ : BufTy).Contents (Elt Ideal)) (x3 x4 x5 : (⟨S128, .f32⟩ : BufTy).Contents (Elt Ideal))
    (x6 x7 : (⟨S64, .f32⟩ : BufTy).Contents (Elt Ideal)) (x8 : (⟨S1200000, .i32⟩ : BufTy).Contents (Elt Ideal)) :
    (⟨S100000x64, .f32⟩ : BufTy).Contents (Elt Ideal) :=
  nodeG x0 (aggOf x8 (msgOf x0 x1 x2 x3 x4 x5 x8)) (shapeCast S1x64 x6 shapeCasts_S64_S1x64) (shapeCast S1x64 x7 shapeCasts_S64_S1x64)

theorem result_eq : (W4 m ρ c (Proc.devRef .tc main_v19) : (⟨S100000x64, .f32⟩ : BufTy).Contents (Elt Ideal))
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ((final4 (V3 m ρ) c).trans ?_)
  rw [V3_arg0, V3_v16, V3_v17, V3_v18]
  rfl

end Cert.KernelIdeal.RunValue

end
-- ==== Proof.RefMsg.lean ====
/-
  The reference, read at an entry, in the same row functions as the kernels.

  Row r of its pre-activation is the product of the concatenated row (the gathered node row followed by the edge row)
  with the transposed weight matrix, plus the bias. Its message at (r, j) is `1 / (1 + exp (-a)) * tanh b` for the layer
  norm's entries a, b at columns j and 64 + j of that row, which is the gate: the logistic function IS that quotient on
  every extended real. Its output at (p, q) is the hyperbolic tangent of the node entry plus the layer norm of row p of the
  scattered sum at q.
-/
import proofs.«168490_j36069135352226_2_alg».proof.Proof.RefReadP
import proofs.«168490_j36069135352226_2_alg».proof.Proof.Spec
import Idealize.ShloMosaic.Lib.ValueIdx

noncomputable section

open scoped BigOperators

namespace Cert.ReferenceIdeal.RefValue

open Cert.ReferenceIdeal Cert.ReferenceIdeal.ReadP Idealize.ShloMosaic Idealize.ShloMosaic.ValueIdx

/-! ## The generated index maps at an index built from its coordinates -/

theorem i8 (k c : Fin 128) : idx_main_v8 (ix2 k c) = ix2 c k := funext fun a => by match a with | ⟨0, _⟩ => rfl | ⟨1, _⟩ => rfl
theorem il9 (r : Fin 1200000) (c k : Fin 128) : lidx_main_v9 (ix2 r c) k = ix2 r k := funext fun a => by match a with | ⟨0, _⟩ => rfl | ⟨1, _⟩ => rfl
theorem ir9 (r : Fin 1200000) (c k : Fin 128) : ridx_main_v9 (ix2 r c) k = ix2 k c := funext fun a => by match a with | ⟨0, _⟩ => rfl | ⟨1, _⟩ => rfl
theorem i10 (u : Fin 1) (c : Fin 128) : idx_main_v10 (ix2 u c) = ix1 c := funext fun a => by match a with | ⟨0, _⟩ => rfl
theorem i31 (u : Fin 1) (c : Fin 128) : idx_main_v31 (ix2 u c) = ix1 c := funext fun a => by match a with | ⟨0, _⟩ => rfl
theorem i34 (u : Fin 1) (c : Fin 128) : idx_main_v34 (ix2 u c) = ix1 c := funext fun a => by match a with | ⟨0, _⟩ => rfl
theorem i11 (r : Fin 1200000) (c : Fin 128) : idx_main_v11 (ix2 r c) = ix2 (0 : Fin 1) c := funext fun a => by match a with | ⟨0, _⟩ => rfl | ⟨1, _⟩ => rfl
theorem i32 (r : Fin 1200000) (c : Fin 128) : idx_main_v32 (ix2 r c) = ix2 (0 : Fin 1) c := funext fun a => by match a with | ⟨0, _⟩ => rfl | ⟨1, _⟩ => rfl
theorem i35 (r : Fin 1200000) (c : Fin 128) : idx_main_v35 (ix2 r c) = ix2 (0 : Fin 1) c := funext fun a => by match a with | ⟨0, _⟩ => rfl | ⟨1, _⟩ => rfl
theorem i13 (r : Fin 1200000) (k : Fin 128) : idx_main_v13 (ix1 r) k = ix2 r k := funext fun a => by match a with | ⟨0, _⟩ => rfl | ⟨1, _⟩ => rfl
theorem i20 (r : Fin 1200000) (k : Fin 128) : idx_main_v20 (ix1 r) k = ix2 r k := funext fun a => by match a with | ⟨0, _⟩ => rfl | ⟨1, _⟩ => rfl
theorem i14 (r : Fin 1200000) (u : Fin 1) : idx_main_v14 (ix2 r u) = ix1 r := funext fun a => by match a with | ⟨0, _⟩ => rfl
theorem i21 (r : Fin 1200000) (u : Fin 1) : idx_main_v21 (ix2 r u) = ix1 r := funext fun a => by match a with | ⟨0, _⟩ => rfl
theorem i17 (r : Fin 1200000) (c : Fin 128) : idx_main_v17 (ix2 r c) = ix2 r (0 : Fin 1) := funext fun a => by match a with | ⟨0, _⟩ => rfl | ⟨1, _⟩ => rfl
theorem i24 (r : Fin 1200000) (c : Fin 128) : idx_main_v24 (ix2 r c) = ix2 r (0 : Fin 1) := funext fun a => by match a with | ⟨0, _⟩ => rfl | ⟨1, _⟩ => rfl
theorem i29 (r : Fin 1200000) (c : Fin 128) : idx_main_v29 (ix2 r c) = ix2 r (0 : Fin 1) := funext fun a => by match a with | ⟨0, _⟩ => rfl | ⟨1, _⟩ => rfl
theorem i37 (r : Fin 1200000) (j : Fin 64) : idx_main_v37 (ix2 r j) = ix2 r (Cert.Spec.lo j) := funext fun a => by match a with | ⟨0, _⟩ => rfl | ⟨1, _⟩ => rfl
theorem i38 (r : Fin 1200000) (j : Fin 64) : idx_main_v38 (ix2 r j) = ix2 r (Cert.Spec.hi j) := funext fun a => by match a with | ⟨0, _⟩ => rfl | ⟨1, _⟩ => rfl
theorem i50 (p : Fin 100000) (k : Fin 64) : idx_main_v50 (ix1 p) k = ix2 p k := funext fun a => by match a with | ⟨0, _⟩ => rfl | ⟨1, _⟩ => rfl
theorem i57 (p : Fin 100000) (k : Fin 64) : idx_main_v57 (ix1 p) k = ix2 p k := funext fun a => by match a with | ⟨0, _⟩ => rfl | ⟨1, _⟩ => rfl
theorem i51 (p : Fin 100000) (u : Fin 1) : idx_main_v51 (ix2 p u) = ix1 p := funext fun a => by match a with | ⟨0, _⟩ => rfl
theorem i58 (p : Fin 100000) (u : Fin 1) : idx_main_v58 (ix2 p u) = ix1 p := funext fun a => by match a with | ⟨0, _⟩ => rfl
theorem i54 (p : Fin 100000) (q : Fin 64) : idx_main_v54 (ix2 p q) = ix2 p (0 : Fin 1) := funext fun a => by match a with | ⟨0, _⟩ => rfl | ⟨1, _⟩ => rfl
theorem i61 (p : Fin 100000) (q : Fin 64) : idx_main_v61 (ix2 p q) = ix2 p (0 : Fin 1) := funext fun a => by match a with | ⟨0, _⟩ => rfl | ⟨1, _⟩ => rfl
theorem i66 (p : Fin 100000) (q : Fin 64) : idx_main_v66 (ix2 p q) = ix2 p (0 : Fin 1) := funext fun a => by match a with | ⟨0, _⟩ => rfl | ⟨1, _⟩ => rfl
theorem i68 (u : Fin 1) (q : Fin 64) : idx_main_v68 (ix2 u q) = ix1 q := funext fun a => by match a with | ⟨0, _⟩ => rfl
theorem i71 (u : Fin 1) (q : Fin 64) : idx_main_v71 (ix2 u q) = ix1 q := funext fun a => by match a with | ⟨0, _⟩ => rfl
theorem i69 (p : Fin 100000) (q : Fin 64) : idx_main_v69 (ix2 p q) = ix2 (0 : Fin 1) q := funext fun a => by match a with | ⟨0, _⟩ => rfl | ⟨1, _⟩ => rfl
theorem i72 (p : Fin 100000) (q : Fin 64) : idx_main_v72 (ix2 p q) = ix2 (0 : Fin 1) q := funext fun a => by match a with | ⟨0, _⟩ => rfl | ⟨1, _⟩ => rfl

/-- The f32 word for one is the number one. -/
theorem ofBits_one : Ideal.ofBits .f32 0x3F800000#32 = 1 := by
  simp [Ideal.ofBits, Ideal.ieee]
  rw [← EReal.coe_mul, ← EReal.coe_one]
  congr 1
  norm_num

variable (x0 : (⟨S100000x64, .f32⟩ : BufTy).Contents (Elt Ideal)) (x1 : (⟨S1200000x64, .f32⟩ : BufTy).Contents (Elt Ideal)) (x2 : (⟨S128x128, .f32⟩ : BufTy).Contents (Elt Ideal)) (x3 x4 x5 : (⟨S128, .f32⟩ : BufTy).Contents (Elt Ideal)) (x6 x7 : (⟨S64, .f32⟩ : BufTy).Contents (Elt Ideal))
  (x8 : (⟨S1200000, .i32⟩ : BufTy).Contents (Elt Ideal))

/-- Row r of the reference's pre-activation: the concatenated row times column c of the transposed weights, plus the bias. -/
def refPre (r : Fin 1200000) : Fin 128 → EReal := fun c =>
  (∑ k : Fin 128, val_main_v7 (F := Ideal) x0 x1 x8 (ix2 r k) * x2 (ix2 c k)) + x3 (ix1 c)

theorem v12_apply (r : Fin 1200000) (c : Fin 128) :
    val_main_v12 (F := Ideal) x0 x1 x2 x3 x8 (ix2 r c) = refPre x0 x1 x2 x3 x8 r c := by
  simp only [val_main_v12_apply, val_main_v9_apply, val_main_v11_apply, val_main_v10_apply, val_main_v8_apply,
    i8, il9, ir9, i10, i11, Ideal.addf_def, refPre]

/-- The reference's layer norm of the pre-activation at (r, c). -/
theorem v36_apply (r : Fin 1200000) (c : Fin 128) :
    val_main_v36 (F := Ideal) x0 x1 x2 x3 x4 x5 x8 (ix2 r c)
      = Cert.Spec.lnorm Cert.Spec.d128 Cert.Spec.eps (refPre x0 x1 x2 x3 x8 r) (fun k => x4 (ix1 k)) (fun k => x5 (ix1 k)) c := by
  simp only [val_main_v36_apply, val_main_v35_apply, val_main_v34_apply, val_main_v33_apply, val_main_v32_apply, val_main_v31_apply,
    val_main_v30_apply, val_main_v29_apply, val_main_v28_apply, val_main_v27_apply, val_main_v26_apply, val_main_cst_4_apply,
    val_main_v25_apply, val_main_v24_apply, val_main_v23_apply, val_main_v22_apply, val_main_cst_3_apply, val_main_v21_apply,
    val_main_v20_apply, val_main_cst_2_apply, val_main_v19_apply, val_main_v18_apply, val_main_v17_apply, val_main_v16_apply,
    val_main_v15_apply, val_main_cst_1_apply, val_main_v14_apply, val_main_v13_apply, val_main_cst_apply,
    i8, il9, ir9, i10, i31, i34, i11, i32, i35, i13, i20, i14, i21, i17, i24, i29, i37, i38, v12_apply, Ideal.addf_def, Ideal.subf_def, Ideal.mulf_def, Ideal.hostDivf_def, Ideal.hostUnary_rsqrt_def, Ideal.hostUnary_exp_def, Ideal.hostUnary_tanh_def, Ideal.hostNegf_def, Ideal.negf_def, Ideal.ofBits_def, Ideal.ofBits_zero_f32, zero_add, Cert.Spec.lnorm, Cert.Spec.normGain, Cert.Spec.var, Cert.Spec.mean]

/-- The reference's message at (r, j). -/
theorem v46_apply (r : Fin 1200000) (j : Fin 64) :
    val_main_v46 (F := Ideal) x0 x1 x2 x3 x4 x5 x8 (ix2 r j)
      = Cert.Spec.gate
          (Cert.Spec.lnorm Cert.Spec.d128 Cert.Spec.eps (refPre x0 x1 x2 x3 x8 r) (fun k => x4 (ix1 k)) (fun k => x5 (ix1 k)) (Cert.Spec.lo j))
          (Cert.Spec.lnorm Cert.Spec.d128 Cert.Spec.eps (refPre x0 x1 x2 x3 x8 r) (fun k => x4 (ix1 k)) (fun k => x5 (ix1 k)) (Cert.Spec.hi j)) := by
  simp only [val_main_v46_apply, val_main_v45_apply, val_main_v44_apply, val_main_v43_apply, val_main_cst_6_apply, val_main_v42_apply,
    val_main_v41_apply, val_main_cst_5_apply, val_main_v40_apply, val_main_v39_apply, val_main_v38_apply, val_main_v37_apply,
    i37, i38, v36_apply, Ideal.addf_def, Ideal.subf_def, Ideal.mulf_def, Ideal.hostDivf_def, Ideal.hostUnary_rsqrt_def, Ideal.hostUnary_exp_def, Ideal.hostUnary_tanh_def, Ideal.hostNegf_def, Ideal.negf_def, Ideal.ofBits_def, Ideal.ofBits_zero_f32, zero_add, ofBits_one, Cert.Spec.gate, Cert.Spec.logistic_eq]

end Cert.ReferenceIdeal.RefValue

end
-- ==== Proof.RefOut.lean ====
/-
  The reference's output, read at an entry.

  Row p of the scattered sum has mean (its sum over 64) and variance (the sum of its squared deviations over 64); the output
  at (p, q) is the hyperbolic tangent of the node entry plus that row's layer norm at q, with the gain and shift vectors.
-/
import proofs.«168490_j36069135352226_2_alg».proof.Proof.RefMsg

noncomputable section

open scoped BigOperators

namespace Cert.ReferenceIdeal.RefValue

open Cert.ReferenceIdeal Cert.ReferenceIdeal.ReadP Idealize.ShloMosaic Idealize.ShloMosaic.ValueIdx

variable (x0 : (⟨S100000x64, .f32⟩ : BufTy).Contents (Elt Ideal)) (x1 : (⟨S1200000x64, .f32⟩ : BufTy).Contents (Elt Ideal)) (x2 : (⟨S128x128, .f32⟩ : BufTy).Contents (Elt Ideal)) (x3 x4 x5 : (⟨S128, .f32⟩ : BufTy).Contents (Elt Ideal)) (x6 x7 : (⟨S64, .f32⟩ : BufTy).Contents (Elt Ideal))
  (x8 : (⟨S1200000, .i32⟩ : BufTy).Contents (Elt Ideal))

/-- The reference's row mean of the scattered sum, at row p. -/
theorem v53_apply (p : Fin 100000) (u : Fin 1) :
    val_main_v53 (F := Ideal) x0 x1 x2 x3 x4 x5 x8 (ix2 p u) = Cert.Spec.mean Cert.Spec.d64 (fun k => val_main_v49 (F := Ideal) x0 x1 x2 x3 x4 x5 x8 (ix2 p k)) := by
  rw [val_main_v53_apply, val_main_v52_apply, val_main_cst_9_apply, val_main_v51_apply, i51, val_main_v50_apply, val_main_cst_8_apply,
    show idx_main_v50 (ix1 p) = (fun k => ix2 p k) from funext (i50 p)]
  rw [Ideal.hostDivf_def, Ideal.ofBits_def, Ideal.ofBits_def, Ideal.ofBits_zero_f32, zero_add]
  unfold Cert.Spec.mean
  rfl

/-- An entry of row p less the row's mean. -/
theorem v55_apply (p : Fin 100000) (k : Fin 64) :
    val_main_v55 (F := Ideal) x0 x1 x2 x3 x4 x5 x8 (ix2 p k) = val_main_v49 (F := Ideal) x0 x1 x2 x3 x4 x5 x8 (ix2 p k) - Cert.Spec.mean Cert.Spec.d64 (fun k => val_main_v49 (F := Ideal) x0 x1 x2 x3 x4 x5 x8 (ix2 p k)) := by
  rw [val_main_v55_apply, val_main_v54_apply, i54, v53_apply, Ideal.subf_def]

theorem v62_apply (p : Fin 100000) (k : Fin 64) :
    val_main_v62 (F := Ideal) x0 x1 x2 x3 x4 x5 x8 (ix2 p k) = val_main_v49 (F := Ideal) x0 x1 x2 x3 x4 x5 x8 (ix2 p k) - Cert.Spec.mean Cert.Spec.d64 (fun k => val_main_v49 (F := Ideal) x0 x1 x2 x3 x4 x5 x8 (ix2 p k)) := by
  rw [val_main_v62_apply, val_main_v61_apply, i61, v53_apply, Ideal.subf_def]

/-- The reference's row variance of the scattered sum, at row p. -/
theorem v60_apply (p : Fin 100000) (u : Fin 1) :
    val_main_v60 (F := Ideal) x0 x1 x2 x3 x4 x5 x8 (ix2 p u) = Cert.Spec.var Cert.Spec.d64 (fun k => val_main_v49 (F := Ideal) x0 x1 x2 x3 x4 x5 x8 (ix2 p k)) := by
  rw [val_main_v60_apply, val_main_v59_apply, val_main_cst_11_apply, val_main_v58_apply, i58, val_main_v57_apply, val_main_cst_10_apply,
    show idx_main_v57 (ix1 p) = (fun k => ix2 p k) from funext (i57 p)]
  rw [Ideal.hostDivf_def, Ideal.ofBits_def, Ideal.ofBits_def, Ideal.ofBits_zero_f32, zero_add]
  unfold Cert.Spec.var
  refine congrArg (fun s => Ideal.div s (Ideal.ofBits .f32 0x42800000#32)) (Finset.sum_congr rfl fun k _ => ?_)
  show val_main_v56 (F := Ideal) x0 x1 x2 x3 x4 x5 x8 (ix2 p k) = _
  rw [val_main_v56_apply, v55_apply, Ideal.mulf_def]

/-- The reference's output at (p, q), over the scattered sum as one array. -/
theorem v75_apply (p : Fin 100000) (q : Fin 64) :
    val_main_v75 (F := Ideal) x0 x1 x2 x3 x4 x5 x6 x7 x8 (ix2 p q)
      = Ideal.tanh (x0 (ix2 p q)
          + Cert.Spec.lnorm Cert.Spec.d64 Cert.Spec.eps (fun k => val_main_v49 (F := Ideal) x0 x1 x2 x3 x4 x5 x8 (ix2 p k))
              (fun k => x6 (ix1 k)) (fun k => x7 (ix1 k)) q) := by
  rw [val_main_v75_apply, val_main_v74_apply, val_main_v73_apply, val_main_v72_apply, val_main_v71_apply, i72, i71,
    val_main_v70_apply, val_main_v69_apply, val_main_v68_apply, i69, i68, val_main_v67_apply, val_main_v66_apply, i66,
    val_main_v65_apply, val_main_v64_apply, val_main_v63_apply, val_main_cst_12_apply, v60_apply, v62_apply]
  unfold Cert.Spec.lnorm Cert.Spec.normGain
  rfl

end Cert.ReferenceIdeal.RefValue

end
-- ==== Proof.Bridge.lean ====
/-
  The two programs compute one function of the arguments.

  The kernel gathers the node rows with the same operation on the same indices as the reference. Row r of its
  pre-activation is (gathered row) · (first 64 rows of the transposed weights) + (edge row) · (last 64 rows) + bias; the
  reference's is (the gathered row followed by the edge row) · (transposed weights) + bias: the same number, because a sum
  over 128 terms is the sum of its first 64 and its last 64 terms. So the layer norms, the gates and hence the message
  arrays are equal, the scatter-adds of equal arrays by equal indices are equal, and the outputs — the hyperbolic tangent of
  the node entry plus the layer norm of the aggregated row — are equal entry by entry. No step uses that an input is finite.
-/
import proofs.«168490_j36069135352226_2_alg».proof.Proof.KernelValue
import proofs.«168490_j36069135352226_2_alg».proof.Proof.RefMsg
import proofs.«168490_j36069135352226_2_alg».proof.Proof.RefOut
import Idealize.ShloMosaic.Lib.ValueLayout
import Idealize.ShloMosaic.Lib.Pipeline.Value

noncomputable section

open scoped BigOperators

namespace Cert.Bridge

open Idealize.ShloMosaic Idealize.ShloMosaic.ValueIdx
open Cert.KernelIdeal.RunValue Cert.KernelIdeal.Arrays Cert.ReferenceIdeal.ReadP Cert.ReferenceIdeal.RefValue

variable (x0 : (⟨Cert.KernelIdeal.S100000x64, .f32⟩ : BufTy).Contents (Elt Ideal)) (x1 : (⟨Cert.KernelIdeal.S1200000x64, .f32⟩ : BufTy).Contents (Elt Ideal)) (x2 : (⟨Cert.KernelIdeal.S128x128, .f32⟩ : BufTy).Contents (Elt Ideal)) (x3 x4 x5 : (⟨Cert.KernelIdeal.S128, .f32⟩ : BufTy).Contents (Elt Ideal)) (x6 x7 : (⟨Cert.KernelIdeal.S64, .f32⟩ : BufTy).Contents (Elt Ideal))
  (x8 : (⟨Cert.KernelIdeal.S1200000, .i32⟩ : BufTy).Contents (Elt Ideal))

/-- Both programs gather the node rows with one operation on one index column. -/
theorem gathered_eq : gathered x0 x8 = val_main_v6 (F := Ideal) x0 x8 := rfl

/-- Row k of the first half of the transposed weights, at column c, is the weight matrix at (c, k). -/
theorem w8_apply (k : Fin 64) (c : Fin 128) :
    extractStridedSlice Cert.KernelIdeal.S64x128 ![0, 0] (weightsT x2) Cert.KernelIdeal.Gen.slices_S128x128_S64x128_0_0 (ix2 k c)
      = x2 (ix2 c (Cert.Spec.lo k)) :=
  (slice2_axis0_apply 0 _ _ k c (Cert.Spec.lo k) (Nat.zero_add _).symm).trans (transpose_ix2_apply x2 _ (Cert.Spec.lo k) c)

/-- Row k of the second half, at column c, is the weight matrix at (c, 64 + k). -/
theorem w9_apply (k : Fin 64) (c : Fin 128) :
    extractStridedSlice Cert.KernelIdeal.S64x128 ![64, 0] (weightsT x2) Cert.KernelIdeal.Gen.slices_S128x128_S64x128_64_0 (ix2 k c)
      = x2 (ix2 c (Cert.Spec.hi k)) :=
  (slice2_axis0_apply 64 _ _ k c (Cert.Spec.hi k) rfl).trans (transpose_ix2_apply x2 _ (Cert.Spec.hi k) c)

/-- A vector of 128 recast as a row reads the vector. -/
theorem row128_apply (v : (⟨Cert.KernelIdeal.S128, .f32⟩ : BufTy).Contents (Elt Ideal)) (c : Fin 128) :
    shapeCast Cert.KernelIdeal.S1x128 v Cert.KernelIdeal.Gen.shapeCasts_S128_S1x128 (ix2 (0 : Fin 1) c) = v (ix1 c) :=
  shapeCast_a_1a_apply v _ 0 c

/-- A vector of 64 recast as a row reads the vector. -/
theorem row64_apply (v : (⟨Cert.KernelIdeal.S64, .f32⟩ : BufTy).Contents (Elt Ideal)) (q : Fin 64) :
    shapeCast Cert.KernelIdeal.S1x64 v Cert.KernelIdeal.Gen.shapeCasts_S64_S1x64 (ix2 (0 : Fin 1) q) = v (ix1 q) :=
  shapeCast_a_1a_apply v _ 0 q

/-- The first half of the reference's concatenated row is the gathered row. -/
theorem v7_lo (r : Fin 1200000) (k : Fin 64) :
    val_main_v7 (F := Ideal) x0 x1 x8 (ix2 r (Cert.Spec.lo k)) = val_main_v6 (F := Ideal) x0 x8 (ix2 r k) := by
  unfold val_main_v7
  exact concatenate_pair_apply_left (s₁ := Cert.ReferenceIdeal.S1200000x64) (s₂ := Cert.ReferenceIdeal.S1200000x64) _ _ _ _
    (ix2 r (Cert.Spec.lo k)) rfl (ix2 r k : Cert.ReferenceIdeal.S1200000x64.Idx) (fun b => by
    match b with
    | ⟨0, _⟩ => rfl
    | ⟨1, _⟩ => rfl)

/-- The second half is the edge row. -/
theorem v7_hi (r : Fin 1200000) (k : Fin 64) :
    val_main_v7 (F := Ideal) x0 x1 x8 (ix2 r (Cert.Spec.hi k)) = x1 (ix2 r k) := by
  unfold val_main_v7
  exact concatenate_pair_apply_right (s₁ := Cert.ReferenceIdeal.S1200000x64) (s₂ := Cert.ReferenceIdeal.S1200000x64) _ _ _ _
    (ix2 r (Cert.Spec.hi k)) rfl rfl (ix2 r k : Cert.ReferenceIdeal.S1200000x64.Idx) (fun b hb => by
    match b, hb with
    | ⟨0, _⟩, _ => rfl
    | ⟨1, _⟩, hb => exact absurd rfl hb) (by show k.val + 64 = 64 + k.val; omega)

/-- THE LAW: row r of the kernel's pre-activation is row r of the reference's. -/
theorem pre_eq (r : Fin 1200000) :
    msgPre (gathered x0 x8) x1
        (extractStridedSlice Cert.KernelIdeal.S64x128 ![0, 0] (weightsT x2) Cert.KernelIdeal.Gen.slices_S128x128_S64x128_0_0)
        (extractStridedSlice Cert.KernelIdeal.S64x128 ![64, 0] (weightsT x2) Cert.KernelIdeal.Gen.slices_S128x128_S64x128_64_0)
        (shapeCast Cert.KernelIdeal.S1x128 x3 Cert.KernelIdeal.Gen.shapeCasts_S128_S1x128) r
      = refPre x0 x1 x2 x3 x8 r := by
  funext c
  unfold msgPre refPre
  rw [Cert.Spec.sum_lo_hi (fun k => val_main_v7 (F := Ideal) x0 x1 x8 (ix2 r k) * x2 (ix2 c k))]
  refine congrArg₂ (· + ·) (congrArg₂ (· + ·) (Finset.sum_congr rfl fun k _ => ?_) (Finset.sum_congr rfl fun k _ => ?_)) ?_
  · show gathered x0 x8 (ix2 r k) * _ = val_main_v7 (F := Ideal) x0 x1 x8 (ix2 r (Cert.Spec.lo k)) * x2 (ix2 c (Cert.Spec.lo k))
    rw [v7_lo, gathered_eq]
    exact congrArg (fun t => val_main_v6 (F := Ideal) x0 x8 (ix2 r k) * t) (w8_apply x2 k c)
  · show x1 (ix2 r k) * _ = val_main_v7 (F := Ideal) x0 x1 x8 (ix2 r (Cert.Spec.hi k)) * x2 (ix2 c (Cert.Spec.hi k))
    rw [v7_hi]
    exact congrArg (fun t => x1 (ix2 r k) * t) (w9_apply x2 k c)
  · exact row128_apply x3 c

/-- The message arrays are equal. -/
theorem msg_eq : msgOf x0 x1 x2 x3 x4 x5 x8 = val_main_v46 (F := Ideal) x0 x1 x2 x3 x4 x5 x8 := by
  funext i
  obtain ⟨r, j, rfl⟩ : ∃ (r : Fin 1200000) (j : Fin 64), i = ix2 r j := ⟨i 0, i 1, eq_ix2 i⟩
  rw [v46_apply]
  show msgAt _ _ _ _ _ _ _ r j = _
  unfold msgAt
  rw [pre_eq]
  have h4 : (fun k : Fin 128 => shapeCast Cert.KernelIdeal.S1x128 x4 Cert.KernelIdeal.Gen.shapeCasts_S128_S1x128 (ix2 (0 : Fin 1) k))
      = fun k => x4 (ix1 k) := funext fun k => row128_apply x4 k
  have h5 : (fun k : Fin 128 => shapeCast Cert.KernelIdeal.S1x128 x5 Cert.KernelIdeal.Gen.shapeCasts_S128_S1x128 (ix2 (0 : Fin 1) k))
      = fun k => x5 (ix1 k) := funext fun k => row128_apply x5 k
  rw [h4, h5]

/-- So are the aggregated arrays: the scatter-add of equal rows, into zeros, by the same indices. -/
theorem agg_eq : aggOf x8 (msgOf x0 x1 x2 x3 x4 x5 x8) = val_main_v49 (F := Ideal) x0 x1 x2 x3 x4 x5 x8 := by
  rw [msg_eq]
  rfl

/-- THE TWO RESULTS are one function of the arguments. -/
theorem out_eq : outOf x0 x1 x2 x3 x4 x5 x6 x7 x8 = val_main_v75 (F := Ideal) x0 x1 x2 x3 x4 x5 x6 x7 x8 := by
  funext i
  obtain ⟨p, q, rfl⟩ : ∃ (p : Fin 100000) (q : Fin 64), i = ix2 p q := ⟨i 0, i 1, eq_ix2 i⟩
  rw [v75_apply]
  show nodeAt _ _ _ _ p q = _
  unfold nodeAt
  rw [agg_eq]
  have h6 : (fun k : Fin 64 => shapeCast Cert.KernelIdeal.S1x64 x6 Cert.KernelIdeal.Gen.shapeCasts_S64_S1x64 (ix2 (0 : Fin 1) k))
      = fun k => x6 (ix1 k) := funext fun k => row64_apply x6 k
  have h7 : (fun k : Fin 64 => shapeCast Cert.KernelIdeal.S1x64 x7 Cert.KernelIdeal.Gen.shapeCasts_S64_S1x64 (ix2 (0 : Fin 1) k))
      = fun k => x7 (ix1 k) := funext fun k => row64_apply x7 k
  rw [h6, h7]

end Cert.Bridge

end
-- ==== Proof.lean ====
/-
  The certificate of the edge-gated message-passing layer: a Pallas message kernel and a Pallas node kernel, with a host
  gather before and a host scatter-add between them, against the plain reference.

  Both programs compute, for every edge, the pre-activation `[node row of the edge's source ; edge row] · Wᵀ + b`, its layer
  norm over 128 entries, the message `logistic (first half) * tanh (second half)`; they add the messages of each node's
  edges, layer-normalise each node's sum over 64 entries and return `tanh (node + that)`. The kernel never forms the
  concatenated row: it multiplies the gathered rows by the first 64 rows of `Wᵀ` and the edge rows by the last 64 and adds —
  a regrouping of a finite sum, equal on all extended reals. Everything else is the same operations on the same values,
  so the two results are equal entry by entry, with no use of the inputs being finite.
-/
import proofs.«168490_j36069135352226_2_alg».proof.Defs
import proofs.«168490_j36069135352226_2_alg».proof.Proof.Gen.Kernel
import proofs.«168490_j36069135352226_2_alg».proof.Proof.Gen.Kernel.Skeleton
import proofs.«168490_j36069135352226_2_alg».proof.Proof.Gen.Kernel.Launch
import proofs.«168490_j36069135352226_2_alg».proof.Proof.Gen.Kernel.Points
import proofs.«168490_j36069135352226_2_alg».proof.Proof.Gen.Kernel.Frame
import proofs.«168490_j36069135352226_2_alg».proof.Proof.Gen.KernelIdeal
import proofs.«168490_j36069135352226_2_alg».proof.Proof.Gen.KernelIdeal.Skeleton
import proofs.«168490_j36069135352226_2_alg».proof.Proof.Gen.KernelIdeal.Launch
import proofs.«168490_j36069135352226_2_alg».proof.Proof.Gen.KernelIdeal.Points
import proofs.«168490_j36069135352226_2_alg».proof.Proof.Gen.KernelIdeal.Frame
import proofs.«168490_j36069135352226_2_alg».proof.Proof.Gen.ReferenceIdeal
import proofs.«168490_j36069135352226_2_alg».proof.Proof.Gen.Pre_finite_inputs
import proofs.«168490_j36069135352226_2_alg».proof.Proof.Bridge
import proofs.«168490_j36069135352226_2_alg».proof.Proof.RefOut
import Idealize.ShloMosaic.Adequacy
import Idealize.ShloMosaic.Init

noncomputable section

namespace Cert.Proof

open Idealize.ShloMosaic Idealize.SL.Sem

/-- The word-level kernel terminates, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the same result: the kernel's result is
    one function of its arguments, the reference's is its last stage of the same arguments, and the two are equal. -/
theorem algebraic : Cert.algebraic_KernelIdeal_ReferenceIdeal := by
  intro m ρ m' ρ' _ hagree
  refine ⟨fun c => Cert.KernelIdeal.RunValue.outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.RunValue.result_eq m ρ c), (h c).2⟩)
      (Cert.KernelIdeal.RunValue.run (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8⟩ := hagree c
    rw [(h c).1, Cert.ReferenceIdeal.ReadP.val_main_v75_eq, e0, e1, e2, e3, e4, e5, e6, e7, e8]
    exact (Cert.Bridge.out_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
